-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1200000 : Shape := ⟨2, ![2, 1200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x5 .f32) (main_arg1 : IVec S2x1200000 32) (main_arg2 : IVec S100000 32) (main_arg3 : FVec F S5x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg3
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x5 : Shape := ⟨2, ![100000, 5]⟩
abbrev S2x1200000 : Shape := ⟨2, ![2, 1200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x1 : Shape := ⟨2, ![100000, 1]⟩
abbrev S100000x64 : Shape := ⟨2, ![100000, 64]⟩
abbrev S5000x5 : Shape := ⟨2, ![5000, 5]⟩
abbrev S5000x1 : Shape := ⟨2, ![5000, 1]⟩
abbrev S5000x64 : Shape := ⟨2, ![5000, 64]⟩
abbrev S1200000x64 : Shape := ⟨2, ![1200000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 75
  | .vmem => 26
  | .smem => 0
  | _ => 0

abbrev bufTy : (tb : Table) → Fin (tcTables nBuf tb) → BufTy
  | .hbm, ⟨0, _⟩ => ⟨S100000x5, .f32⟩
  | .hbm, ⟨1, _⟩ => ⟨S2x1200000, .i32⟩
  | .hbm, ⟨2, _⟩ => ⟨S100000, .i32⟩
  | .hbm, ⟨3, _⟩ => ⟨S5x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x1200000, .i32⟩
  | .hbm, ⟨10, _⟩ => ⟨S1200000, .i32⟩
  | .hbm, ⟨11, _⟩ => ⟨S1x1200000, .i32⟩
  | .hbm, ⟨12, _⟩ => ⟨S1200000, .i32⟩
  | .hbm, ⟨13, _⟩ => ⟨S_, .f32⟩
  | .hbm, ⟨14, _⟩ => ⟨S1200000, .f32⟩
  | .hbm, ⟨15, _⟩ => ⟨S_, .f32⟩
  | .hbm, ⟨16, _⟩ => ⟨S100000, .f32⟩
  | .hbm, ⟨17, _⟩ => ⟨S1200000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1200000, .i32⟩
  | .hbm, ⟨27, _⟩ => ⟨S1200000, .i1⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S1200000, .i32⟩
  | .hbm, ⟨32, _⟩ => ⟨S1200000x1, .i32⟩
  | .hbm, ⟨33, _⟩ => ⟨S1200000x64, .f32⟩
  | .hbm, ⟨34, _⟩ => ⟨S_, .f32⟩
  | .hbm, ⟨35, _⟩ => ⟨S100000x64, .f32⟩
  | .hbm, ⟨36, _⟩ => ⟨S1200000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1200000, .i32⟩
  | .hbm, ⟨42, _⟩ => ⟨S1200000, .i1⟩
  | .hbm, ⟨43, _⟩ => ⟨S_, .i32⟩
  | .hbm, ⟨44, _⟩ => ⟨S1200000, .i32⟩
  | .hbm, ⟨45, _⟩ => ⟨S1200000, .i32⟩
  | .hbm, ⟨46, _⟩ => ⟨S1200000, .i32⟩
  | .hbm, ⟨47, _⟩ => ⟨S1200000x1, .i32⟩
  | .hbm, ⟨48, _⟩ => ⟨S1200000x64, .f32⟩
  | .hbm, ⟨49, _⟩ => ⟨S_, .f32⟩
  | .hbm, ⟨50, _⟩ => ⟨S100000x64, .f32⟩
  | .hbm, ⟨51, _⟩ => ⟨S1200000x1, .i32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S_, .f32⟩
  | .hbm, ⟨56, _⟩ => ⟨S256x64, .f32⟩
  | .hbm, ⟨57, _⟩ => ⟨S100000x1, .i32⟩
  | .hbm, ⟨58, _⟩ => ⟨S256x64, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S256, .f32⟩
  | .hbm, ⟨63, _⟩ => ⟨S100000x1, .i32⟩
  | .hbm, ⟨64, _⟩ => ⟨S256, .f32⟩
  | .hbm, ⟨65, _⟩ => ⟨S_, .f32⟩
  | .hbm, ⟨66, _⟩ => ⟨S256, .f32⟩
  | .hbm, ⟨67, _⟩ => ⟨S256, .f32⟩
  | .hbm, ⟨68, _⟩ => ⟨S256x1, .f32⟩
  | .hbm, ⟨69, _⟩ => ⟨S256x64, .f32⟩
  | .hbm, ⟨70, _⟩ => ⟨S256x64, .f32⟩
  | .hbm, ⟨71, _⟩ => ⟨S256x2, .f32⟩
  | .hbm, ⟨72, _⟩ => ⟨S1x2, .f32⟩
  | .hbm, ⟨73, _⟩ => ⟨S256x2, .f32⟩
  | .hbm, ⟨74, _⟩ => ⟨S256x2, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1200000x1_S1200000_n_0_0_1_wf : ScatterDims.WF S100000 S1200000x1 S1200000 [] [0] [0] 1
  dot_S5000x5_S5x64_S5000x64_1_0_0_1_n_n_wf : DotDims.WF S5000x5 S5x64 S5000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x5 : Shape := ⟨2, ![100000, 5]⟩
abbrev S2x1200000 : Shape := ⟨2, ![2, 1200000]⟩
abbrev S100000 : Shape := ⟨1, ![100000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S100000x5, .f32⟩
  | 1 => ⟨S2x1200000, .i32⟩
  | 2 => ⟨S100000, .i32⟩
  | 3 => ⟨S5x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S1x1200000, .i32⟩
  | 10 => ⟨S1200000, .i32⟩
  | 11 => ⟨S1x1200000, .i32⟩
  | 12 => ⟨S1200000, .i32⟩
  | 13 => ⟨S100000, .i32⟩
  | 14 => ⟨S1300000, .i32⟩
  | 15 => ⟨S1300000, .i32⟩
  | 16 => ⟨S_, .f32⟩
  | 17 => ⟨S1300000, .f32⟩
  | 18 => ⟨S_, .f32⟩
  | 19 => ⟨S100000, .f32⟩
  | 20 => ⟨S1300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S100000x64, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x1, .f32⟩
  | 60 => ⟨S1300000x64, .f32⟩
  | 61 => ⟨S1300000x64, .f32⟩
  | 62 => ⟨S_, .f32⟩
  | 63 => ⟨S100000x64, .f32⟩
  | 64 => ⟨S1300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1300000, .i32⟩
  | 74 => ⟨S1300000, .i32⟩
  | 75 => ⟨S_, .f32⟩
  | 76 => ⟨S1300000, .f32⟩
  | 77 => ⟨S_, .f32⟩
  | 78 => ⟨S100000, .f32⟩
  | 79 => ⟨S1300000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1300000, .i32⟩
  | 91 => ⟨S1300000, .i1⟩
  | 92 => ⟨S_, .i32⟩
  | 93 => ⟨S1300000, .i32⟩
  | 94 => ⟨S1300000, .i32⟩
  | 95 => ⟨S1300000, .i32⟩
  | 96 => ⟨S1300000x1, .i32⟩
  | 97 => ⟨S1300000, .f32⟩
  | 98 => ⟨S_, .i32⟩
  | 99 => ⟨S1300000, .i32⟩
  | 100 => ⟨S1300000, .i1⟩
  | 101 => ⟨S_, .i32⟩
  | 102 => ⟨S1300000, .i32⟩
  | 103 => ⟨S1300000, .i32⟩
  | 104 => ⟨S1300000, .i32⟩
  | 105 => ⟨S1300000x1, .i32⟩
  | 106 => ⟨S1300000, .f32⟩
  | 107 => ⟨S1300000, .f32⟩
  | 108 => ⟨S100000x64, .f32⟩
  | 109 => ⟨S_, .i32⟩
  | 110 => ⟨S1300000, .i32⟩
  | 111 => ⟨S1300000, .i1⟩
  | 112 => ⟨S_, .i32⟩
  | 113 => ⟨S1300000, .i32⟩
  | 114 => ⟨S1300000, .i32⟩
  | 115 => ⟨S1300000, .i32⟩
  | 116 => ⟨S1300000x1, .i32⟩
  | 117 => ⟨S1300000x64, .f32⟩
  | 118 => ⟨S1300000x1, .f32⟩
  | 119 => ⟨S1300000x64, .f32⟩
  | 120 => ⟨S1300000x64, .f32⟩
  | 121 => ⟨S_, .f32⟩
  | 122 => ⟨S100000x64, .f32⟩
  | 123 => ⟨S1300000x1, .i32⟩
  | 124 => ⟨S100000x64, .f32⟩
  | 125 => ⟨S1x64, .f32⟩
  | 126 => ⟨S100000x64, .f32⟩
  | 127 => ⟨S100000x64, .f32⟩
  | _ => ⟨S100000x5, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S256x64, .f32⟩
  | 5 => ⟨S100000x1, .i32⟩
  | 6 => ⟨S256x64, .f32⟩
  | 7 => ⟨S_, .f32⟩
  | 8 => ⟨S100000, .f32⟩
  | 9 => ⟨S_, .f32⟩
  | 10 => ⟨S256, .f32⟩
  | 11 => ⟨S100000x1, .i32⟩
  | 12 => ⟨S256, .f32⟩
  | 13 => ⟨S_, .f32⟩
  | 14 => ⟨S256, .f32⟩
  | 15 => ⟨S256, .f32⟩
  | 16 => ⟨S256x1, .f32⟩
  | 17 => ⟨S256x64, .f32⟩
  | 18 => ⟨S256x64, .f32⟩
  | 19 => ⟨S256x2, .f32⟩
  | 20 => ⟨S1x2, .f32⟩
  | 21 => ⟨S256x2, .f32⟩
  | 22 => ⟨S256x2, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_c_16 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x5_S5x64_S100000x64_1_0_0_1_n_n_wf : DotDims.WF S100000x5 S5x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.KernelRun.lean ====
/-
  The idealized kernel's whole run, keeping its result: from any launch memory every weakly fair execution of @main
  — three row-tiled regions among four stretches of host operations — terminates without a fault, its result
  buffer holds what the last stretch of host operations leaves there (the fold `W7` of the stretches and the regions'
  write-backs over the launch memory), and the argument arrays are as launched. The argument is the frame's: the
  same segments, thread states and entailments; only the last step differs, which reads the result buffer off the
  final thread state beside the arguments.
-/
import proofs.«134846_j47244640256095_2_alg».proof.Proof.Patched.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run_value : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.Spec.lean ====
/-
  Two graph-convolution layers with symmetric degree normalisation, over the extended reals, written in the two
  arrangements that are to be compared.

  A graph has 100000 nodes and 1200000 directed edges `src e → dst e`, the end points given as 32-bit words of
  ANY value. A word names a row the way an array index does: a negative word is first moved up by the number of
  nodes (`wrap`), and the row read is that word, read signed, clamped into `[0, 99999]` (`row`). A word names a
  row to be WRITTEN only when, read signed, it is a node's number: an edge whose target is no node contributes
  nowhere.

  With `deg n` the number of edges into `n` and `dinv n = (deg n + 1)^(-1/2)` (the `+ 1` is the node's own loop),
  one layer maps the projected features `H = X · W` to

      max (Σ_{e into n} H[src e] · (dinv[src e] · dinv[n])  +  H[n] · (dinv[n] · dinv[n])  +  b, 0).

  * `layerK` scales every row by its own `dinv` FIRST (`scaled`), sums the scaled rows of the edges into `n`
    (`agg`), adds the node's own scaled row, and multiplies the total by `dinv n` once.
  * `layerR` appends one loop edge `n → n` per node to the edge list (`cat`), recounts the degrees over the
    longer list (`degR`, guarded against zero: `dinvR`), gives every edge its weight `dinv[src] · dinv[dst]`
    (`norm`), and sums the weighted rows.
-/
import Idealize.ShloMosaic.PureOps.Ideal
import Idealize.ShloMosaic.Lib.ValueIdx

noncomputable section

open scoped BigOperators

namespace Cert.Gcn

open Idealize.ShloMosaic

/-- An array index given as a word: a negative word is moved up by the number of nodes. -/
def wrap (z : BitVec 32) : BitVec 32 := Scalar.select (IntOp.cmpi .slt z 0#32) (IntOp.addi z 100000#32) z

/-- The row a word reads: wrapped, read signed, clamped into `[0, 99999]`. -/
def row (z : BitVec 32) : Fin 100000 := ⟨min (wrap z).toInt.toNat (100000 - 1), by omega⟩

/-- The matrix product `X · W` of a `100000 × K` matrix with a `K × 64` matrix. -/
def lin {K : ℕ} (X : Fin 100000 → Fin K → EReal) (W : Fin K → Fin 64 → EReal) (p : Fin 100000) (q : Fin 64) : EReal :=
  ∑ k : Fin K, X p k * W k q

/-! ## Scale first, sum, scale once more -/

section ScaleFirst

variable (src dst : Fin 1200000 → BitVec 32)

/-- The number of edges into node `n`. -/
def deg (n : Fin 100000) : EReal := ∑ e : Fin 1200000, if (dst e).toInt = (n.val : ℤ) then (1 : EReal) else 0

/-- `(deg n + 1)^(-1/2)`. -/
def dinv (n : Fin 100000) : EReal := Ideal.rsqrt (deg dst n + 1)

/-- Every row multiplied by its own normaliser. -/
def scaled (dv : Fin 100000 → EReal) (H : Fin 100000 → Fin 64 → EReal) (p : Fin 100000) (q : Fin 64) : EReal :=
  H p q * dv p

/-- The sum of the rows `Hs[src e]` over the edges `e` into `n`. -/
def agg (Hs : Fin 100000 → Fin 64 → EReal) (n : Fin 100000) (q : Fin 64) : EReal :=
  ∑ e : Fin 1200000, if (dst e).toInt = (n.val : ℤ) then Hs (row (src e)) q else 0

/-- One layer: the scaled rows summed over the incoming edges, the node's own scaled row added, the total scaled
    once by the node's normaliser; then the bias and the floor at zero. -/
def layerK (dv : Fin 100000 → EReal) (H : Fin 100000 → Fin 64 → EReal) (b : Fin 64 → EReal) (n : Fin 100000)
    (q : Fin 64) : EReal :=
  max (dv n * (agg src dst (scaled dv H) n q + scaled dv H n q) + b q) 0

/-- Two layers. -/
def twoK (X : Fin 100000 → Fin 5 → EReal) (W1 : Fin 5 → Fin 64 → EReal) (b1 : Fin 64 → EReal)
    (W2 : Fin 64 → Fin 64 → EReal) (b2 : Fin 64 → EReal) : Fin 100000 → Fin 64 → EReal :=
  layerK src dst (dinv dst) (lin (layerK src dst (dinv dst) (lin X W1) b1) W2) b2

end ScaleFirst

/-! ## Loop edges appended, every edge weighted -/

section Weighted

/-- The edge words with one loop edge per node appended: position `1200000 + n` holds the word of `n`. -/
def cat (v : Fin 1200000 → BitVec 32) (e : Fin 1300000) : BitVec 32 :=
  if h : e.val < 1200000 then v ⟨e.val, h⟩ else BitVec.ofNat 32 (e.val - 1200000)

variable (s d : Fin 1300000 → BitVec 32)

/-- The number of edges of the longer list into node `n`. -/
def degR (n : Fin 100000) : EReal := ∑ e : Fin 1300000, if (d e).toInt = (n.val : ℤ) then (1 : EReal) else 0

/-- `degR^(-1/2)` where the degree is positive, else `0`. -/
def dinvR (n : Fin 100000) : EReal :=
  Scalar.select (Ideal.cmp .ogt (degR d n) 0) (Ideal.rsqrt (degR d n)) 0

/-- An edge's weight: the normalisers of its two end rows. -/
def norm (e : Fin 1300000) : EReal := dinvR d (row (s e)) * dinvR d (row (d e))

/-- One layer: the weighted rows summed over the edges into `n`; then the bias and the floor at zero. -/
def layerR (H : Fin 100000 → Fin 64 → EReal) (b : Fin 64 → EReal) (n : Fin 100000) (q : Fin 64) : EReal :=
  max ((∑ e : Fin 1300000, if (d e).toInt = (n.val : ℤ) then H (row (s e)) q * norm s d e else 0) + b q) 0

end Weighted

/-- Two layers over the list with the loop edges appended. -/
def twoR (src dst : Fin 1200000 → BitVec 32) (X : Fin 100000 → Fin 5 → EReal) (W1 : Fin 5 → Fin 64 → EReal)
    (b1 : Fin 64 → EReal) (W2 : Fin 64 → Fin 64 → EReal) (b2 : Fin 64 → EReal) : Fin 100000 → Fin 64 → EReal :=
  layerR (cat src) (cat dst) (lin (layerR (cat src) (cat dst) (lin X W1) b1) W2) b2

end Cert.Gcn

end
-- ==== Proof.LibRowGather.lean ====
/-
  ROW GATHER READ AT AN INDEX. A gather of whole rows of a matrix `x : [N, D]` at a column of start indices
  `idx : [E, 1]` (offset axis 1, collapsed slice axis 0, start index map [0], index vector axis 1, slice sizes
  [1, D]): result element `(e, f)` is `x` at row `idx[e, 0]`, read as a signed integer and clamped into
  `[0, N - 1]`, and column `f`.
-/
import Idealize.ShloMosaic.Lib.ValueIdx
import Idealize.ShloMosaic.PureOps.ShapeOps

namespace Cert.LibRowGather

open Idealize.ShloMosaic Idealize.ShloMosaic.ValueIdx

/-- The row gather at `(e, f)`: the operand at row `min (idx[e, 0] read signed, negative as 0) (N - 1)` and column `f`.
    On axis 0 the operand index is the clamped start (the slice has one row, the axis is collapsed, so no offset); on
    axis 1 the start is 0 (the axis is not in the start index map) and the offset coordinate is `f`. -/
theorem rowGather_apply {α : Type} {N D E w : ℕ} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (f : Fin D) :
    Host.gather d x idx (ix2 e f)
      = x (ix2 ⟨min (idx (ix2 e (0 : Fin 1))).toInt.toNat (N - 1), by omega⟩ f) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, D], wf⟩ :
          GatherDims ⟨2, ![N, D]⟩ ⟨2, ![E, 1]⟩ ⟨2, ![E, D]⟩) (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨(show (1 : Fin 2) ∉ [0] by decide), List.not_mem_nil⟩)]
    simp only [Nat.zero_add]
    rfl

end Cert.LibRowGather
-- ==== Proof.LibRowScatter.lean ====
/-
  ROW SCATTER-ADD READ AT AN INDEX. An accumulating scatter of whole rows into a matrix `x : [N, D]` at a column of
  scatter indices `idx : [E, 1]` with updates `upd : [E, D]` (update window axis 1, inserted window axis 0, scatter
  dims to operand dims [0], index vector axis 1), over the extended reals: element `(n, g)` of the result is
  `x[n, g]` plus the sum of `upd[e, g]` over the update rows `e` whose index `idx[e, 0]`, read as a signed integer,
  is `n`. An update row whose index is outside `[0, N)` contributes nowhere.
-/
import Idealize.ShloMosaic.Lib.ValueIdx
import Idealize.ShloMosaic.PureOps.Ideal

open scoped BigOperators

namespace Cert.LibRowScatter

open Idealize.ShloMosaic Idealize.ShloMosaic.ValueIdx

/-- For any scatter dimension numbers: update index `j` lands at operand index `i` exactly when, on every operand
    axis, the start (read signed, not clamped) plus the window coordinate is `i`'s coordinate. (The update is dropped
    exactly when some axis leaves the operand, and no index `i` of the operand has such a coordinate.) -/
theorem resultIdx?_eq_some_iff_forall {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · rintro rfl a
      have := (h a).1
      simp only [Int.toNat_of_nonneg this]
    · intro hh
      funext a
      refine Fin.ext ?_
      have := hh a
      show (d.start j idx a + (d.window j a : ℤ)).toNat = (i a).val
      omega
  · rename_i h
    constructor
    · intro hh; cases hh
    · intro hh
      exfalso
      apply h
      intro a
      have := hh a
      have := (i a).isLt
      omega

/-- The row scatter's dimension numbers, as a record over its well-formedness fact. -/
private abbrev rowDims {N D E : ℕ} (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ := ⟨[1], [0], [0], 1, wf⟩

section
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (f : Fin D)

/-- On the scattered axis the start is the row index `idx[e, 0]` read signed. -/
private theorem start0 : (rowDims wf).start (ix2 e f) idx 0 = (idx (ix2 e (0 : Fin 1))).toInt := by
  unfold ScatterDims.start
  rw [dif_pos (List.mem_singleton.mpr rfl)]
  have hsi : (rowDims wf).siIdx (ix2 e f)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The scattered axis is inserted: its window coordinate is 0. -/
private theorem window0 : (rowDims wf).window (ix2 e f) 0 = 0 := by
  unfold ScatterDims.window
  rw [dif_neg]
  show (0 : Fin 2) ∉ (List.finRange 2).filter (· ∉ [(0 : Fin 2)])
  decide

/-- The column axis is not scattered: its start is 0. -/
private theorem start1 : (rowDims wf).start (ix2 e f) idx 1 = 0 := by
  unfold ScatterDims.start
  rw [dif_neg]
  show (1 : Fin 2) ∉ [(0 : Fin 2)]
  decide

/-- The column axis is the window axis: its window coordinate is the update's column. -/
private theorem window1 : (rowDims wf).window (ix2 e f) 1 = f.val := by
  unfold ScatterDims.window
  rw [dif_pos]
  · rfl
  · show (1 : Fin 2) ∈ (List.finRange 2).filter (· ∉ [(0 : Fin 2)])
    decide

end

/-- Where update element `(e, f)` lands: at `(n, g)` exactly when the row index `idx[e, 0]`, read signed, is `n` and
    the columns agree. On axis 0 the result index is the start (not clamped) plus window coordinate 0 (the axis is
    inserted); on axis 1 it is start 0 (the axis is not scattered) plus the window coordinate `f`. -/
theorem resultIdx?_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f g : Fin D) (n : Fin N) :
    d.resultIdx? (ix2 e f) idx = some (ix2 n g) ↔ (idx (ix2 e (0 : Fin 1))).toInt = (n.val : ℤ) ∧ f = g := by
  obtain ⟨uw, iw, sd, ivd, wf⟩ := d
  simp only at h1 h2 h3 h4
  subst h1 h2 h3 h4
  show (rowDims wf).resultIdx? (ix2 e f) idx = some (ix2 n g) ↔ _
  rw [resultIdx?_eq_some_iff_forall]
  constructor
  · intro hh
    have e0 : (rowDims wf).start (ix2 e f) idx 0 + ((rowDims wf).window (ix2 e f) 0 : ℤ) = (n.val : ℤ) := hh 0
    have e1 : (rowDims wf).start (ix2 e f) idx 1 + ((rowDims wf).window (ix2 e f) 1 : ℤ) = (g.val : ℤ) := hh 1
    rw [start0, window0] at e0
    rw [start1, window1] at e1
    refine ⟨by simpa using e0, Fin.ext ?_⟩
    have : (f.val : ℤ) = (g.val : ℤ) := by simpa using e1
    exact_mod_cast this
  · rintro ⟨hn, rfl⟩ a
    match a with
    | ⟨0, _⟩ =>
      show (rowDims wf).start (ix2 e f) idx 0 + ((rowDims wf).window (ix2 e f) 0 : ℤ) = (n.val : ℤ)
      rw [start0, window0, hn]; simp
    | ⟨1, _⟩ =>
      show (rowDims wf).start (ix2 e f) idx 1 + ((rowDims wf).window (ix2 e f) 1 : ℤ) = (f.val : ℤ)
      rw [start1, window1]; simp

/-- THE ROW SCATTER-ADD AT `(n, g)`: the operand's element plus the updates `upd[e, g]` of the rows `e` whose index,
    read signed, is `n`. The sum over the update elements landing at `(n, g)` is a double sum over rows and columns; in
    row `e` only column `g` can land there, and it does exactly when `idx[e, 0] = n`. -/
theorem rowScatterAdd_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (n : Fin N) (g : Fin D) :
    Host.scatterAdd (F := Ideal) (φ := .f32) d x idx upd (ix2 n g)
      = x (ix2 n g) + ∑ e : Fin E, if (idx (ix2 e (0 : Fin 1))).toInt = (n.val : ℤ) then upd (ix2 e g) else 0 := by
  show x (ix2 n g) + ∑ j ∈ Finset.univ.filter (fun j => d.resultIdx? j idx = some (ix2 n g)), upd j = _
  congr 1
  rw [Finset.sum_filter, sum_idx2]
  refine Finset.sum_congr rfl fun e _ => ?_
  simp only [resultIdx?_eq_some_iff d h1 h2 h3 h4]
  by_cases hc : (idx (ix2 e (0 : Fin 1))).toInt = (n.val : ℤ)
  · simp only [hc, true_and, if_true]
    rw [Finset.sum_ite_eq' Finset.univ g (fun f => upd (ix2 e f))]
    simp
  · simp only [hc, false_and, if_false]
    exact Finset.sum_const_zero

end Cert.LibRowScatter
-- ==== Proof.LibSegmentSum.lean ====
/-
  A scatter whose operand is a vector, whose scatter indices are a column of start positions and
  whose updates are a vector with one entry per start position (no window axes: every update is a
  single element) is a segment sum: update e lands on operand position n exactly when the e-th
  start position, read as a signed integer, equals n; a start position outside the operand drops
  its update.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- A rank-1 index built from a coordinate has that coordinate on its one axis, however the axis
    is written. -/
theorem ix1_apply_any {n : Nat} (a : Fin n) (x : Fin 1) : (ix1 a x).val = a.val := by
  match x with
  | ⟨0, _⟩ => rfl

variable {s si u : Shape}

/-- With no update window axes, every window coordinate is zero. -/
theorem window_eq_zero_of_nil (d : ScatterDims s si u) (h : d.updateWindowDims = []) (j : u.Idx)
    (a : Fin s.rank) : d.window j a = 0 := by
  unfold ScatterDims.window
  split
  · rename_i ha
    have hlt : d.sKept.idxOf a < d.updateWindowDims.length := by
      rw [d.window_length]; exact List.idxOf_lt_length_iff.2 ha
    rw [h] at hlt
    exact absurd hlt (Nat.not_lt_zero _)
  · rfl

/-- **A column scatter is a segment sum.** For an operand vector of extent `N`, a column of `E`
    start positions (scatter indices of shape `[E, 1]`, the index vector on axis 1) and `E`
    single-element updates (no update window axes, operand axis 0 inserted, start positions
    addressing operand axis 0): update `e` lands on operand position `n` exactly when the signed
    value of start position `e` is `n`. -/
theorem resultIdx?_column {N E w : Nat}
    (d : ScatterDims (⟨1, ![N]⟩ : Shape) (⟨2, ![E, 1]⟩ : Shape) (⟨1, ![E]⟩ : Shape))
    (huw : d.updateWindowDims = []) (hsd : d.scatterDimsToOperandDims = [0])
    (hiv : d.indexVectorDim = 1)
    (idx : IVec (⟨2, ![E, 1]⟩ : Shape) w) (e : Fin E) (n : Fin N) :
    d.resultIdx? (ix1 e) idx = some (ix1 n) ↔ (idx (ix2 e 0)).toInt = (n.val : Int) := by
  have hwin : ∀ a, d.window (ix1 e) a = 0 := fun a => window_eq_zero_of_nil d huw _ a
  have hstart : ∀ a, d.start (ix1 e) idx a = (idx (ix2 e 0)).toInt := by
    intro a
    obtain ⟨uw, iw, sd, iv, wf⟩ := d
    simp only at huw hsd hiv
    subst huw hsd hiv
    have ha : a = 0 := Subsingleton.elim _ _
    subst ha
    unfold ScatterDims.start
    rw [dif_pos (List.mem_singleton.2 rfl)]
    congr 2
    funext b
    match b with
    | ⟨0, _⟩ =>
      apply Fin.ext
      unfold ScatterDims.siIdx
      rw [dif_neg (by simp)]
      unfold ScatterDims.siCoord
      simp only [Fin.coe_cast]
      exact ix1_apply_any e _
    | ⟨1, _⟩ =>
      apply Fin.ext
      unfold ScatterDims.siIdx
      rw [dif_pos rfl]
      simp
  unfold ScatterDims.resultIdx?
  constructor
  · intro h
    split at h
    · rename_i hc
      have h0 := congrFun (Option.some.inj h) 0
      have hv : (d.start (ix1 e) idx 0 + d.window (ix1 e) 0).toNat = n.val := congrArg Fin.val h0
      have hc0 : 0 ≤ d.start (ix1 e) idx 0 + d.window (ix1 e) 0 := (hc 0).1
      rw [hwin, hstart] at hv hc0
      omega
    · exact absurd h (by simp)
  · intro h
    have hc : ∀ a, 0 ≤ d.start (ix1 e) idx a + d.window (ix1 e) a ∧
        d.start (ix1 e) idx a + d.window (ix1 e) a < (⟨1, ![N]⟩ : Shape).size a := by
      intro a
      have ha : a = 0 := Subsingleton.elim _ _
      subst ha
      rw [hwin, hstart, h]
      have := n.isLt
      constructor
      · omega
      · show (n.val : Int) + ((0 : Nat) : Int) < (N : Int)
        omega
    rw [dif_pos hc]
    congr 1
    funext a
    have ha : a = 0 := Subsingleton.elim _ _
    subst ha
    apply Fin.ext
    show (d.start (ix1 e) idx 0 + d.window (ix1 e) 0).toNat = n.val
    rw [hwin, hstart, h]
    omega

end Cert.Lib.SegmentSum

end
-- ==== Proof.LibSumIdx1.lean ====
/-
  A sum over a rank-one index set is the sum over its one coordinate.

  An index of a one-axis shape of extent n is a function from the one axis to its coordinate; it is determined by that
  coordinate, so summing over all indices is summing over the coordinate's range.
-/
import Idealize.ShloMosaic.Lib.ValueIdx

namespace Cert.PairLoss

open Idealize.ShloMosaic Idealize.ShloMosaic.ValueIdx

/-- A rank-one index set is its one coordinate's range, so a sum over it is the sum over the coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

end Cert.PairLoss
-- ==== Proof.LibVecScatterAdd.lean ====
/-
  AN ACCUMULATING SCATTER INTO A VECTOR READ AT AN INDEX. Single-element updates `upd : [E]` added into a vector
  `x : [N]` at a column of positions `idx : [E, 1]` (no update window axes, operand axis 0 inserted, positions
  addressing operand axis 0, the index vector on axis 1 — a segment sum), over the extended reals: element `n` of
  the result is `x[n]` plus the sum of `upd[e]` over the updates `e` whose position `idx[e, 0]`, read as a signed
  integer, is `n`. An update whose position is outside `[0, N)` contributes nowhere.
-/
import Idealize.ShloMosaic.PureOps.Ideal
import Idealize.ShloMosaic.Lib.ValueIdx
import proofs.«134846_j47244640256095_2_alg».proof.Proof.LibSegmentSum
import proofs.«134846_j47244640256095_2_alg».proof.Proof.LibSumIdx1

open scoped BigOperators

namespace Cert.LibVecScatterAdd

open Idealize.ShloMosaic Idealize.ShloMosaic.ValueIdx

/-- The scatter-add into a vector at `n`: the operand's element plus the updates whose position, read signed, is `n`.
    The sum over the update elements landing at `n` is a filtered sum over the updates' indices; update `e` lands
    there exactly when `idx[e, 0] = n`. -/
theorem vecScatterAdd_apply {N E w : ℕ} (d : ScatterDims (⟨1, ![N]⟩ : Shape) (⟨2, ![E, 1]⟩ : Shape) (⟨1, ![E]⟩ : Shape))
    (huw : d.updateWindowDims = []) (hsd : d.scatterDimsToOperandDims = [0]) (hiv : d.indexVectorDim = 1)
    (x : (⟨1, ![N]⟩ : Shape).Idx → EReal) (idx : IVec (⟨2, ![E, 1]⟩ : Shape) w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : ℤ) then upd (ix1 e) else 0 := by
  show x (ix1 n) + ∑ j ∈ Finset.univ.filter (fun j => d.resultIdx? j idx = some (ix1 n)), upd j = _
  congr 1
  rw [Finset.sum_filter, Cert.PairLoss.sum_idx1]
  refine Finset.sum_congr rfl fun e _ => ?_
  simp only [Cert.Lib.SegmentSum.resultIdx?_column d huw hsd hiv]

end Cert.LibVecScatterAdd
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.HostReads.lean ====
/-
  What the kernel program's host operations between its regions compute, read at an index, as functions of the
  arrays they are given (any arrays: nothing here depends on where the arrays come from).

  * the two rows of the edge array, cut out and flattened, are the source and target words of the edges;
  * the normaliser column: ones scattered at the target words into zeros count the edges into each node
    (`Cert.Gcn.deg`), one is added for the node's own loop, the inverse square root is taken, and the vector is laid
    as a column — entry `(p, 0)` is `Cert.Gcn.dinv` at `p`;
  * a bias vector laid as a one-row matrix has the vector's element `k` at `(0, k)`;
  * the aggregate: the rows of a matrix gathered at the (wrapped, clamped) source words and scattered, added, at
    the target words into zeros — entry `(n, q)` is the sum of the rows of the edges into `n` (`Cert.Gcn.agg`).
-/
import proofs.«134846_j47244640256095_2_alg».proof.Proof.Gen.KernelIdeal
import proofs.«134846_j47244640256095_2_alg».proof.Proof.Spec
import proofs.«134846_j47244640256095_2_alg».proof.Proof.LibRowGather
import proofs.«134846_j47244640256095_2_alg».proof.Proof.LibRowScatter
import proofs.«134846_j47244640256095_2_alg».proof.Proof.LibVecScatterAdd
import proofs.«134846_j47244640256095_2_alg».proof.Proof.LibBroadcastInDim
import proofs.«134846_j47244640256095_2_alg».proof.Proof.LibKeepdims
import proofs.«134846_j47244640256095_2_alg».proof.Proof.LibBiasRow
import Idealize.ShloMosaic.PureOps.Ideal.Laws
import Idealize.ShloMosaic.Lib.Pipeline.Value
import Idealize.ShloMosaic.Lib.ValueIdx

noncomputable section

open scoped BigOperators

namespace Cert.KernelIdeal.HostReads

open Cert.KernelIdeal Cert.KernelIdeal.Gen Idealize.ShloMosaic Idealize.ShloMosaic.ValueIdx

/-- The single-precision word of one is the real number one. -/
theorem ofBits_one_f32 : Ideal.ofBits .f32 0x3F800000#32 = (1 : EReal) := by
  simp [Ideal.ofBits, Ideal.ieee]
  rw [← EReal.coe_mul]
  norm_num

/-- The host's inverse square root of a vector, at an index. -/
theorem hostRsqrt_apply {s : Shape} (x : FVec Ideal s .f32) (i : s.Idx) : Host.rsqrt (F := Ideal) x i = Ideal.rsqrt (x i) := rfl

/-! ## The edge words -/

/-- Row `r` of the edge array, cut out as a one-row matrix and flattened. -/
def edgeWords (off : Fin 2 → ℕ) (hs : S2x1200000.Slices off S1x1200000) (ei : IVec S2x1200000 32) : IVec S1200000 32 :=
  shapeCast S1200000 (extractStridedSlice S1x1200000 off ei hs) shapeCasts_S1x1200000_S1200000

/-- The flattened row `r` at position `e` is the edge array's entry `(r, e)`. -/
theorem edgeWords_apply (r : Fin 2) (off : Fin 2 → ℕ) (hoff : off = ![r.val, 0]) (ei : IVec S2x1200000 32)
    (hs : S2x1200000.Slices off S1x1200000) (e : Fin 1200000) :
    edgeWords off hs ei (ix1 e) = ei (ix2 r e) := by
  subst hoff
  unfold edgeWords
  rw [shapeCast_apply _ shapeCasts_S1x1200000_S1200000 (ix1 e) (ix2 (0 : Fin 1) e) (by
    rw [Shape.rowMajor_val_two, Shape.rowMajor_val_one]
    show (0 : ℕ) * 1200000 + e.val = e.val
    omega)]
  exact extractStridedSlice_apply _ ei hs (ix2 (0 : Fin 1) e) (ix2 r e) (fun a => by
    match a with
    | ⟨0, _⟩ => show r.val = r.val + 0; omega
    | ⟨1, _⟩ => show e.val = 0 + e.val; omega)

/-! ## The normaliser column -/

/-- The normaliser column of the target words `d`. -/
def dinvCol (d : IVec S1200000 32) : FVec Ideal S100000x1 .f32 :=
  shapeCast S100000x1
    (Host.rsqrt (F := Ideal)
      (addf
        (Host.scatterAdd scatter_S100000_S1200000x1_S1200000_n_0_0_1
          (broadcastInDim S100000 ![] bcast_S_S100000 (constant (F := Ideal) S_ .f32 0x00000000#32))
          (broadcastInDim S1200000x1 ![0] bcast_S1200000_S1200000x1_0 d)
          (broadcastInDim S1200000 ![] bcast_S_S1200000 (constant (F := Ideal) S_ .f32 0x3F800000#32)))
        (broadcastInDim S100000 ![] bcast_S_S100000 (constant (F := Ideal) S_ .f32 0x3F800000#32))))
    shapeCasts_S100000_S100000x1

/-- The normaliser column at `(p, 0)`. -/
theorem dinvCol_apply (d : IVec S1200000 32) (p : Fin 100000) (u : Fin 1) :
    dinvCol d (ix2 p u) = Cert.Gcn.dinv (fun e => d (ix1 e)) p := by
  unfold dinvCol
  rw [Cert.LibKeepdims.shapeCast_a_a1_apply, hostRsqrt_apply, addf_apply,
    Cert.LibVecScatterAdd.vecScatterAdd_apply _ rfl rfl rfl]
  simp only [Cert.LibBroadcastInDim.scalar_apply, constant_apply, Ideal.ofBits_zero_f32, ofBits_one_f32, zero_add]
  unfold Cert.Gcn.dinv Cert.Gcn.deg
  refine congrArg (fun x => Ideal.rsqrt (x + 1)) (Finset.sum_congr rfl fun e _ => ?_)
  rw [Cert.LibBroadcastInDim.vec_col_apply]

/-! ## A bias vector as a one-row matrix -/

/-- A bias vector laid as a one-row matrix. -/
def biasRow (b : FVec Ideal S64 .f32) : FVec Ideal S1x64 .f32 := shapeCast S1x64 b shapeCasts_S64_S1x64

/-- A bias vector laid as a one-row matrix, at `(0, k)`. -/
theorem biasRow_apply (b : FVec Ideal S64 .f32) (u : Fin 1) (k : Fin 64) : biasRow b (ix2 u k) = b (ix1 k) :=
  Cert.LibBiasRow.vec_as_row_apply _ b u k

/-! ## The aggregate -/

/-- The rows of `hm` gathered at the wrapped source words `s` and scattered, added, at the target words `d` into
    zeros. -/
def aggregate (hm : FVec Ideal S100000x64 .f32) (s d : IVec S1200000 32) : FVec Ideal S100000x64 .f32 :=
  Host.scatterAdd (F := Ideal) scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 hm
      (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 100000#32))) s)))

/-- Entry `(n, q)` of the aggregate is the sum of the rows `hm[row (s e)]` over the edges `e` whose target word is
    `n`. -/
theorem aggregate_apply (hm : FVec Ideal S100000x64 .f32) (s d : IVec S1200000 32) (n : Fin 100000) (q : Fin 64) :
    aggregate hm s d (ix2 n q)
      = Cert.Gcn.agg (fun e => s (ix1 e)) (fun e => d (ix1 e)) (fun p q => hm (ix2 p q)) n q := by
  unfold aggregate
  rw [Cert.LibRowScatter.rowScatterAdd_apply _ rfl rfl rfl rfl]
  rw [Cert.LibBroadcastInDim.scalar_apply, constant_apply, Ideal.ofBits_zero_f32, zero_add]
  unfold Cert.Gcn.agg
  refine Finset.sum_congr rfl fun e _ => ?_
  rw [Cert.LibBroadcastInDim.vec_col_apply]
  by_cases he : (d (ix1 e)).toInt = (n.val : ℤ)
  · have hidx : broadcastInDim S1200000x1 ![0] bcast_S1200000_S1200000x1_0
          (select (cmpi .slt s (broadcastInDim S1200000 ![] bcast_S_S1200000 (constantI S_ 32 0#32)))
            (addi s (broadcastInDim S1200000 ![] bcast_S_S1200000 (constantI S_ 32 100000#32))) s) (ix2 e (0 : Fin 1))
        = Cert.Gcn.wrap (s (ix1 e)) := by
      rw [Cert.LibBroadcastInDim.vec_col_apply]
      simp only [select_apply, Cert.LibBroadcastInDim.scalar_apply]
      rfl
    rw [if_pos he, if_pos he, Cert.LibRowGather.rowGather_apply (by norm_num) _ rfl rfl rfl rfl rfl rfl rfl]
    refine congrArg (fun r : Fin 100000 => hm (ix2 r q)) (Fin.ext ?_)
    simp only [hidx]
    rfl
  · rw [if_neg he, if_neg he]

end Cert.KernelIdeal.HostReads

end
-- ==== Proof.Tail.lean ====
/-
  The head both programs end with, as one function of the node features `h : [100000, 64]`, the graph number of
  every node `bt`, and the head's weights: the features are summed per graph (a scatter-add at the graph numbers
  into zeros), the nodes of each graph are counted the same way, each graph's sum is divided by its count (at least
  one), and the pooled `[256, 64]` matrix goes through one linear layer `· Wfc + bfc` into `[256, 2]`.

  The two programs spell it with the same operations over their own dimension records; the records have the same
  fields, so the two spellings are one function (`headK_eq_headR`), and nothing about the head's arithmetic is
  ever needed: equal features give equal results.
-/
import proofs.«134846_j47244640256095_2_alg».proof.Proof.Gen.KernelIdeal
import proofs.«134846_j47244640256095_2_alg».proof.Proof.Gen.ReferenceIdeal
import Idealize.ShloMosaic.PureOps.Ideal

noncomputable section

namespace Cert.PoolHead

open Idealize.ShloMosaic

section KernelSpelling
open Cert.KernelIdeal Cert.KernelIdeal.Gen

/-- The head as the kernel program spells it. -/
def headK (h : FVec Ideal S100000x64 .f32) (bt : IVec S100000 32) (wfc : FVec Ideal S64x2 .f32)
    (bfc : FVec Ideal S2 .f32) : FVec Ideal S256x2 .f32 :=
  addf
    (Host.dotGeneral (F := Ideal) dot_S256x64_S64x2_S256x2_1_0_0_1_n_n none
      (Host.divf
        (Host.scatterAdd scatter_S256x64_S100000x1_S100000x64_1_0_0_1
          (broadcastInDim S256x64 ![] bcast_S_S256x64 (constant (F := Ideal) S_ .f32 0x00000000#32))
          (broadcastInDim S100000x1 ![0] bcast_S100000_S100000x1_0 bt) h)
        (broadcastInDim S256x64 ![0, 1] bcast_S256x1_S256x64_0_1
          (broadcastInDim S256x1 ![0] bcast_S256_S256x1_0
            (maximumf
              (Host.scatterAdd scatter_S256_S100000x1_S100000_n_0_0_1
                (broadcastInDim S256 ![] bcast_S_S256 (constant (F := Ideal) S_ .f32 0x00000000#32))
                (broadcastInDim S100000x1 ![0] bcast_S100000_S100000x1_0 bt)
                (broadcastInDim S100000 ![] bcast_S_S100000 (constant (F := Ideal) S_ .f32 0x3F800000#32)))
              (broadcastInDim S256 ![] bcast_S_S256 (constant (F := Ideal) S_ .f32 0x3F800000#32))))))
      wfc)
    (broadcastInDim S256x2 ![0, 1] bcast_S1x2_S256x2_0_1 (broadcastInDim S1x2 ![1] bcast_S2_S1x2_1 bfc))

end KernelSpelling

section ReferenceSpelling
open Cert.ReferenceIdeal Cert.ReferenceIdeal.Gen

/-- The head as the reference program spells it. -/
def headR (h : FVec Ideal S100000x64 .f32) (bt : IVec S100000 32) (wfc : FVec Ideal S64x2 .f32)
    (bfc : FVec Ideal S2 .f32) : FVec Ideal S256x2 .f32 :=
  addf
    (Host.dotGeneral (F := Ideal) dot_S256x64_S64x2_S256x2_1_0_0_1_n_n none
      (Host.divf
        (Host.scatterAdd scatter_S256x64_S100000x1_S100000x64_1_0_0_1
          (broadcastInDim S256x64 ![] bcast_S_S256x64 (constant (F := Ideal) S_ .f32 0x00000000#32))
          (broadcastInDim S100000x1 ![0] bcast_S100000_S100000x1_0 bt) h)
        (broadcastInDim S256x64 ![0, 1] bcast_S256x1_S256x64_0_1
          (broadcastInDim S256x1 ![0] bcast_S256_S256x1_0
            (maximumf
              (Host.scatterAdd scatter_S256_S100000x1_S100000_n_0_0_1
                (broadcastInDim S256 ![] bcast_S_S256 (constant (F := Ideal) S_ .f32 0x00000000#32))
                (broadcastInDim S100000x1 ![0] bcast_S100000_S100000x1_0 bt)
                (broadcastInDim S100000 ![] bcast_S_S100000 (constant (F := Ideal) S_ .f32 0x3F800000#32)))
              (broadcastInDim S256 ![] bcast_S_S256 (constant (F := Ideal) S_ .f32 0x3F800000#32))))))
      wfc)
    (broadcastInDim S256x2 ![0, 1] bcast_S1x2_S256x2_0_1 (broadcastInDim S1x2 ![1] bcast_S2_S1x2_1 bfc))

end ReferenceSpelling

/-- The two spellings are one function: the dimension records of the two programs have the same fields. -/
theorem headK_eq_headR (h : FVec Ideal Cert.KernelIdeal.S100000x64 .f32) (bt : IVec Cert.KernelIdeal.S100000 32)
    (wfc : FVec Ideal Cert.KernelIdeal.S64x2 .f32) (bfc : FVec Ideal Cert.KernelIdeal.S2 .f32) :
    headK h bt wfc bfc = headR h bt wfc bfc := rfl

end Cert.PoolHead

end
-- ==== Proof.Stretches.lean ====
/-
  What each of the kernel program's four stretches of host operations leaves in the buffers that matter, from ANY
  contents `W` of the buffers when the stretch starts: the buffers a stretch computes, as the named terms of
  HostReads.lean and Tail.lean over `W`'s contents of the buffers they read; and the buffers a stretch passes by,
  unchanged.

    stretch 0 (before the first region):  the source and target words, the normaliser column;
    stretch 1 (before the second region): the first aggregate, the first bias as a row;
    stretch 2 (before the third region):  the second aggregate, the second bias as a row;
    stretch 3 (after the third region):   the head.
-/
import proofs.«134846_j47244640256095_2_alg».proof.Proof.Patched.KernelIdeal.Launch
import proofs.«134846_j47244640256095_2_alg».proof.Proof.HostReads
import proofs.«134846_j47244640256095_2_alg».proof.Proof.Tail
import Idealize.ShloMosaic.Lib.StableHlo.Run

noncomputable section

namespace Cert.KernelIdeal.Stretches

open Cert.KernelIdeal Cert.KernelIdeal.Gen Cert.KernelIdeal.HostReads
open Idealize.ShloMosaic Idealize.ShloMosaic.TcCoe Idealize.ShloMosaic.StableHlo Idealize.SL.Sem

/-- A buffer that no operation of a stretch writes keeps its contents: each operation's written buffer is another
    reference. -/
macro "not_written" : tactic =>
  `(tactic| (refine StableHlo.after_of_forall_not_mem _ _ (List.forall_iff_forall_mem.mp ?_)
             simp only [hostOps0, hostOps1, hostOps2, hostOps3, List.Forall, StableHlo.nullary_writes,
               StableHlo.unary_writes, StableHlo.binary_writes, StableHlo.ternary_writes, StableHlo.reshape_writes,
               Finset.mem_singleton]
             repeat' apply And.intro
             all_goals exact StableHlo.devRef_ne_of_ne (by decide)))

variable (W : Valuation τ sig (Elt Ideal))

/-! ## What the stretches compute -/

theorem ops0_v1 : after (hostOps0 (F := Ideal)) W (Proc.devRef .tc main_v1)
    = edgeWords ![0, 0] slices_S2x1200000_S1x1200000_0_0 (W (Proc.devRef .tc main_arg1)) := by
  after_results; rfl

theorem ops0_v3 : after (hostOps0 (F := Ideal)) W (Proc.devRef .tc main_v3)
    = edgeWords ![1, 0] slices_S2x1200000_S1x1200000_1_0 (W (Proc.devRef .tc main_arg1)) := by
  after_results; rfl

theorem ops0_v11 : after (hostOps0 (F := Ideal)) W (Proc.devRef .tc main_v11)
    = dinvCol (edgeWords ![1, 0] slices_S2x1200000_S1x1200000_1_0 (W (Proc.devRef .tc main_arg1))) := by
  after_results; rfl

theorem ops1_v22 : after (hostOps1 (F := Ideal)) W (Proc.devRef .tc main_v22)
    = aggregate (W (Proc.devRef .tc main_v12)) (W (Proc.devRef .tc main_v1)) (W (Proc.devRef .tc main_v3)) := by
  after_results; rfl

theorem ops1_v23 : after (hostOps1 (F := Ideal)) W (Proc.devRef .tc main_v23) = biasRow (W (Proc.devRef .tc main_arg4)) := by
  after_results; rfl

theorem ops2_v34 : after (hostOps2 (F := Ideal)) W (Proc.devRef .tc main_v34)
    = aggregate (W (Proc.devRef .tc main_v24)) (W (Proc.devRef .tc main_v1)) (W (Proc.devRef .tc main_v3)) := by
  after_results; rfl

theorem ops2_v35 : after (hostOps2 (F := Ideal)) W (Proc.devRef .tc main_v35) = biasRow (W (Proc.devRef .tc main_arg6)) := by
  after_results; rfl

set_option maxHeartbeats 1000000 in
theorem ops3_v52 : after (hostOps3 (F := Ideal)) W (Proc.devRef .tc main_v52)
    = Cert.PoolHead.headK (W (Proc.devRef .tc main_v36)) (W (Proc.devRef .tc main_arg2)) (W (Proc.devRef .tc main_arg7))
        (W (Proc.devRef .tc main_arg8)) := by
  after_results_simp <;> rfl

/-! ## What the stretches pass by -/

theorem ops0_main_arg0 : after (hostOps0 (F := Ideal)) W (Proc.devRef .tc main_arg0) = W (Proc.devRef .tc main_arg0) := by not_written
theorem ops0_main_arg3 : after (hostOps0 (F := Ideal)) W (Proc.devRef .tc main_arg3) = W (Proc.devRef .tc main_arg3) := by not_written
theorem ops0_main_arg4 : after (hostOps0 (F := Ideal)) W (Proc.devRef .tc main_arg4) = W (Proc.devRef .tc main_arg4) := by not_written
theorem ops0_main_arg5 : after (hostOps0 (F := Ideal)) W (Proc.devRef .tc main_arg5) = W (Proc.devRef .tc main_arg5) := by not_written
theorem ops0_main_arg6 : after (hostOps0 (F := Ideal)) W (Proc.devRef .tc main_arg6) = W (Proc.devRef .tc main_arg6) := by not_written
theorem ops1_main_v1 : after (hostOps1 (F := Ideal)) W (Proc.devRef .tc main_v1) = W (Proc.devRef .tc main_v1) := by not_written
theorem ops1_main_v3 : after (hostOps1 (F := Ideal)) W (Proc.devRef .tc main_v3) = W (Proc.devRef .tc main_v3) := by not_written
theorem ops1_main_v11 : after (hostOps1 (F := Ideal)) W (Proc.devRef .tc main_v11) = W (Proc.devRef .tc main_v11) := by not_written
theorem ops1_main_v12 : after (hostOps1 (F := Ideal)) W (Proc.devRef .tc main_v12) = W (Proc.devRef .tc main_v12) := by not_written
theorem ops1_main_arg5 : after (hostOps1 (F := Ideal)) W (Proc.devRef .tc main_arg5) = W (Proc.devRef .tc main_arg5) := by not_written
theorem ops1_main_arg6 : after (hostOps1 (F := Ideal)) W (Proc.devRef .tc main_arg6) = W (Proc.devRef .tc main_arg6) := by not_written
theorem ops2_main_v11 : after (hostOps2 (F := Ideal)) W (Proc.devRef .tc main_v11) = W (Proc.devRef .tc main_v11) := by not_written
theorem ops2_main_v24 : after (hostOps2 (F := Ideal)) W (Proc.devRef .tc main_v24) = W (Proc.devRef .tc main_v24) := by not_written
theorem ops3_main_arg2 : after (hostOps3 (F := Ideal)) W (Proc.devRef .tc main_arg2) = W (Proc.devRef .tc main_arg2) := by not_written
theorem ops3_main_arg7 : after (hostOps3 (F := Ideal)) W (Proc.devRef .tc main_arg7) = W (Proc.devRef .tc main_arg7) := by not_written
theorem ops3_main_arg8 : after (hostOps3 (F := Ideal)) W (Proc.devRef .tc main_arg8) = W (Proc.devRef .tc main_arg8) := by not_written

end Cert.KernelIdeal.Stretches

end
-- ==== Proof.RegionOut.lean ====
/-
  What each of the kernel's three regions writes at entry `(p, q)` of its output array, as a function of its input
  arrays (any arrays of the regions' shapes):

    region 0:  `(Σ_k x[p,k] · w[k,q]) · d[p,0]`                                      — a row of `x · w`, scaled;
    region 1:  `(Σ_k max (d[p,0] · (a[p,k] + b[p,k]) + bias[0,k], 0) · w[k,q]) · d[p,0]` — one layer finished, the next
               one's product started and scaled;
    region 2:  `max (d[p,0] · (a[p,q] + b[p,q]) + bias[0,q], 0)`                        — one layer finished.
-/
import proofs.«134846_j47244640256095_2_alg».proof.KernelIdeal
import Idealize.ShloMosaic.PureOps.Ideal
import Idealize.ShloMosaic.Lib.ValueIdx

noncomputable section

open scoped BigOperators

namespace Cert.KernelIdeal.RegionOut

open Cert.KernelIdeal Idealize.ShloMosaic Idealize.ShloMosaic.ValueIdx

/-- Region 0 at `(p, q)`. -/
def out0 (x : S100000x5.Idx → EReal) (w : S5x64.Idx → EReal) (d : S100000x1.Idx → EReal) (p : Fin 100000) (q : Fin 64) : EReal :=
  (∑ k : Fin 5, x (ix2 p k) * w (ix2 k q)) * d (ix2 p 0)

/-- Region 1 at `(p, q)`. -/
def out1 (d : S100000x1.Idx → EReal) (a b : S100000x64.Idx → EReal) (bias : S1x64.Idx → EReal) (w : S64x64.Idx → EReal)
    (p : Fin 100000) (q : Fin 64) : EReal :=
  (∑ k : Fin 64, max (d (ix2 p 0) * (a (ix2 p k) + b (ix2 p k)) + bias (ix2 0 k)) 0 * w (ix2 k q)) * d (ix2 p 0)

/-- Region 2 at `(p, q)`. -/
def out2 (d : S100000x1.Idx → EReal) (a b : S100000x64.Idx → EReal) (bias : S1x64.Idx → EReal) (p : Fin 100000) (q : Fin 64) : EReal :=
  max (d (ix2 p 0) * (a (ix2 p q) + b (ix2 p q)) + bias (ix2 0 q)) 0

end Cert.KernelIdeal.RegionOut

end
-- ==== Proof.KernelFold.lean ====
/-
  The kernel program's buffers at the seven boundaries of its run — before and after each of the three regions —
  followed from the launch memory to the result.

  Write `X, EI, B, W1, b1, W2, b2, Wfc, bfc` for the nine argument arrays as launched, `src e = EI[0, e]`,
  `dst e = EI[1, e]`, `dv = Cert.Gcn.dinv dst`. Then, entry by entry,

    after stretch 0:  the normaliser column holds `dv`, the two word vectors hold `src` and `dst`;
    after region 0:   the first region's output holds `scaled dv (X · W1)`;
    after stretch 1:  the first aggregate holds `agg src dst` of that, the bias row `b1`;
    after region 1:   the second region's output holds `scaled dv (h1 · W2)`, `h1` the first layer `layerK`;
    after stretch 2:  the second aggregate holds `agg src dst` of that, the bias row `b2`;
    after region 2:   the third region's output holds the second layer: `Cert.Gcn.twoK`;
    after stretch 3:  the result holds the head of that output.

  Each step reads one stretch (Stretches.lean) or one region's output array (the three hypotheses below, one per
  region: the output array at an entry from the region's input arrays at entries) at the previous boundary's
  contents, and every buffer a step passes by is carried along unchanged.
-/
import proofs.«134846_j47244640256095_2_alg».proof.Proof.Patched.KernelIdeal.Frame
import proofs.«134846_j47244640256095_2_alg».proof.Proof.Stretches
import proofs.«134846_j47244640256095_2_alg».proof.Proof.Spec
import proofs.«134846_j47244640256095_2_alg».proof.Proof.RegionOut

noncomputable section

open scoped BigOperators

namespace Cert.KernelIdeal.Fold

open Cert.KernelIdeal Cert.KernelIdeal.Gen Cert.KernelIdeal.HostReads Cert.KernelIdeal.Stretches Cert.KernelIdeal.RegionOut
open Idealize.ShloMosaic Idealize.ShloMosaic.TcCoe Idealize.ShloMosaic.ValueIdx Idealize.SL.Sem
open Idealize.ShloMosaic.Pipeline (Dat)

/-- What a region's output array holds, at an entry, from the contents `V` the region is entered with: the
    region's entry function (RegionOut.lean) of its input arrays. -/
structure RegionReads : Prop where
  r0 : ∀ (V : (c : Dev nD) → (b : Ref sig .tc) → Buf (Elt Ideal) ((c : Thread nD τ).loc b)) (c : Dev nD)
      (p : Fin 100000) (q : Fin 64),
      ((dat0 (F := Ideal) V c).arrAt 3 cfg0.N : S100000x64.Idx → EReal) (ix2 p q)
        = out0 (V c main_arg0) (V c main_arg3) (V c main_v11) p q
  r1 : ∀ (V : (c : Dev nD) → (b : Ref sig .tc) → Buf (Elt Ideal) ((c : Thread nD τ).loc b)) (c : Dev nD)
      (p : Fin 100000) (q : Fin 64),
      ((dat1 (F := Ideal) V c).arrAt 5 cfg1.N : S100000x64.Idx → EReal) (ix2 p q)
        = out1 (V c main_v11) (V c main_v22) (V c main_v12) (V c main_v23) (V c main_arg5) p q
  r2 : ∀ (V : (c : Dev nD) → (b : Ref sig .tc) → Buf (Elt Ideal) ((c : Thread nD τ).loc b)) (c : Dev nD)
      (p : Fin 100000) (q : Fin 64),
      ((dat2 (F := Ideal) V c).arrAt 4 cfg2.N : S100000x64.Idx → EReal) (ix2 p q)
        = out2 (V c main_v11) (V c main_v34) (V c main_v24) (V c main_v35) p q

variable (hR : RegionReads)
variable (m : (ℓ : Loc nD τ sig) → Buf (Elt Ideal) ℓ) (ρ : Dev nD → PrngReg) (c : Dev nD)

/-! ## The launch arrays, entry by entry -/

/-- The source word of edge `e`. -/
def src (e : Fin 1200000) : BitVec 32 := (m ((c : Thread nD τ).loc main_arg1) : S2x1200000.Idx → BitVec 32) (ix2 (0 : Fin 2) e)
/-- The target word of edge `e`. -/
def dst (e : Fin 1200000) : BitVec 32 := (m ((c : Thread nD τ).loc main_arg1) : S2x1200000.Idx → BitVec 32) (ix2 (1 : Fin 2) e)
/-- The node features. -/
def xX (p : Fin 100000) (k : Fin 5) : EReal := (m ((c : Thread nD τ).loc main_arg0) : S100000x5.Idx → EReal) (ix2 p k)
def w1 (k : Fin 5) (q : Fin 64) : EReal := (m ((c : Thread nD τ).loc main_arg3) : S5x64.Idx → EReal) (ix2 k q)
def bb1 (q : Fin 64) : EReal := (m ((c : Thread nD τ).loc main_arg4) : S64.Idx → EReal) (ix1 q)
def w2 (k : Fin 64) (q : Fin 64) : EReal := (m ((c : Thread nD τ).loc main_arg5) : S64x64.Idx → EReal) (ix2 k q)
def bb2 (q : Fin 64) : EReal := (m ((c : Thread nD τ).loc main_arg6) : S64.Idx → EReal) (ix1 q)

/-- The normaliser of the launch graph. -/
def dv : Fin 100000 → EReal := Cert.Gcn.dinv (dst m c)
/-- The first layer. -/
def h1 : Fin 100000 → Fin 64 → EReal := Cert.Gcn.layerK (src m c) (dst m c) (dv m c) (Cert.Gcn.lin (xX m c) (w1 m c)) (bb1 m c)

/-! ## After stretch 0 -/

theorem W1_v1 (e : Fin 1200000) : (W1 m ρ c (Proc.devRef .tc main_v1) : S1200000.Idx → BitVec 32) (ix1 e) = src m c e :=
  (congrFun (ops0_v1 (W0 m ρ c)) (ix1 e)).trans (edgeWords_apply 0 _ rfl _ _ e)

theorem W1_v3 (e : Fin 1200000) : (W1 m ρ c (Proc.devRef .tc main_v3) : S1200000.Idx → BitVec 32) (ix1 e) = dst m c e :=
  (congrFun (ops0_v3 (W0 m ρ c)) (ix1 e)).trans (edgeWords_apply 1 _ rfl _ _ e)

theorem W1_v11 (p : Fin 100000) : (W1 m ρ c (Proc.devRef .tc main_v11) : S100000x1.Idx → EReal) (ix2 p 0) = dv m c p := by
  refine (congrFun (ops0_v11 (W0 m ρ c)) (ix2 p 0)).trans ?_
  rw [dinvCol_apply]
  unfold dv
  congr 1
  funext e
  exact edgeWords_apply 1 _ rfl _ _ e

theorem V1_arg0 : V1 m ρ c main_arg0 = m ((c : Thread nD τ).loc main_arg0) := ops0_main_arg0 (W0 m ρ c)
theorem V1_arg3 : V1 m ρ c main_arg3 = m ((c : Thread nD τ).loc main_arg3) := ops0_main_arg3 (W0 m ρ c)
theorem W1_arg4 : W1 m ρ c (Proc.devRef .tc main_arg4) = m ((c : Thread nD τ).loc main_arg4) := ops0_main_arg4 (W0 m ρ c)
theorem W1_arg5 : W1 m ρ c (Proc.devRef .tc main_arg5) = m ((c : Thread nD τ).loc main_arg5) := ops0_main_arg5 (W0 m ρ c)
theorem W1_arg6 : W1 m ρ c (Proc.devRef .tc main_arg6) = m ((c : Thread nD τ).loc main_arg6) := ops0_main_arg6 (W0 m ρ c)

/-! ## After region 0 -/

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_arg4 : W2 m ρ c (Proc.devRef .tc main_arg4) = W1 m ρ c (Proc.devRef .tc main_arg4) := W2_of_ne m ρ c main_arg4 (by decide)
theorem W2_arg5 : W2 m ρ c (Proc.devRef .tc main_arg5) = W1 m ρ c (Proc.devRef .tc main_arg5) := W2_of_ne m ρ c main_arg5 (by decide)
theorem W2_arg6 : W2 m ρ c (Proc.devRef .tc main_arg6) = W1 m ρ c (Proc.devRef .tc main_arg6) := W2_of_ne m ρ c main_arg6 (by decide)
/-- The normaliser column is an input of region 0: the region leaves it as it found it. -/
theorem W2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))

include hR in
/-- Region 0's output: every row of `X · W1` scaled by its normaliser. -/
theorem W2_v12 (p : Fin 100000) (q : Fin 64) :
    (W2 m ρ c (Proc.devRef .tc main_v12) : S100000x64.Idx → EReal) (ix2 p q)
      = Cert.Gcn.scaled (dv m c) (Cert.Gcn.lin (xX m c) (w1 m c)) p q := by
  refine (congrFun (W2_arr m ρ c 3) (ix2 p q)).trans ?_
  rw [hR.r0 (V1 m ρ) c p q, V1_arg0, V1_arg3]
  unfold out0
  dsimp only [V1]
  rw [W1_v11]
  rfl

/-! ## After stretch 1 -/

theorem W3_v1 : W3 m ρ c (Proc.devRef .tc main_v1) = W1 m ρ c (Proc.devRef .tc main_v1) := (ops1_main_v1 (W2 m ρ c)).trans (W2_v1 m ρ c)
theorem W3_v3 : W3 m ρ c (Proc.devRef .tc main_v3) = W1 m ρ c (Proc.devRef .tc main_v3) := (ops1_main_v3 (W2 m ρ c)).trans (W2_v3 m ρ c)
theorem W3_v11 : W3 m ρ c (Proc.devRef .tc main_v11) = W1 m ρ c (Proc.devRef .tc main_v11) := (ops1_main_v11 (W2 m ρ c)).trans (W2_v11 m ρ c)
theorem W3_v12 : W3 m ρ c (Proc.devRef .tc main_v12) = W2 m ρ c (Proc.devRef .tc main_v12) := ops1_main_v12 (W2 m ρ c)
theorem W3_arg5 : W3 m ρ c (Proc.devRef .tc main_arg5) = m ((c : Thread nD τ).loc main_arg5) :=
  (ops1_main_arg5 (W2 m ρ c)).trans ((W2_arg5 m ρ c).trans (W1_arg5 m ρ c))
theorem W3_arg6 : W3 m ρ c (Proc.devRef .tc main_arg6) = m ((c : Thread nD τ).loc main_arg6) :=
  (ops1_main_arg6 (W2 m ρ c)).trans ((W2_arg6 m ρ c).trans (W1_arg6 m ρ c))

include hR in
/-- The first aggregate. -/
theorem W3_v22 (n : Fin 100000) (q : Fin 64) :
    (W3 m ρ c (Proc.devRef .tc main_v22) : S100000x64.Idx → EReal) (ix2 n q)
      = Cert.Gcn.agg (src m c) (dst m c) (Cert.Gcn.scaled (dv m c) (Cert.Gcn.lin (xX m c) (w1 m c))) n q := by
  refine (congrFun (ops1_v22 (W2 m ρ c)) (ix2 n q)).trans ?_
  rw [aggregate_apply, W2_v1, W2_v3]
  simp only [W1_v1 m ρ c, W1_v3 m ρ c, W2_v12 hR m ρ c]

/-- The first bias as a row. -/
theorem W3_v23 (u : Fin 1) (k : Fin 64) : (W3 m ρ c (Proc.devRef .tc main_v23) : S1x64.Idx → EReal) (ix2 u k) = bb1 m c k := by
  refine (congrFun (ops1_v23 (W2 m ρ c)) (ix2 u k)).trans ?_
  rw [biasRow_apply, W2_arg4, W1_arg4]
  rfl

/-! ## After region 1 -/

theorem W4_v1 : W4 m ρ c (Proc.devRef .tc main_v1) = W1 m ρ c (Proc.devRef .tc main_v1) := (W4_of_ne m ρ c main_v1 (by decide)).trans (W3_v1 m ρ c)
theorem W4_v3 : W4 m ρ c (Proc.devRef .tc main_v3) = W1 m ρ c (Proc.devRef .tc main_v3) := (W4_of_ne m ρ c main_v3 (by decide)).trans (W3_v3 m ρ c)
theorem W4_arg6 : W4 m ρ c (Proc.devRef .tc main_arg6) = m ((c : Thread nD τ).loc main_arg6) := (W4_of_ne m ρ c main_arg6 (by decide)).trans (W3_arg6 m ρ c)
/-- The normaliser column is an input of region 1 too. -/
theorem W4_v11 : W4 m ρ c (Proc.devRef .tc main_v11) = W1 m ρ c (Proc.devRef .tc main_v11) :=
  ((W4_arr m ρ c 2).trans (((dat1 (V3 m ρ) c).arrAt_in 2 rfl _).trans (A_eq1 (V3 m ρ) c 2))).trans (W3_v11 m ρ c)

include hR in
/-- Region 1's output: every row of `h1 · W2` scaled by its normaliser, `h1` the first layer. -/
theorem W4_v24 (p : Fin 100000) (q : Fin 64) :
    (W4 m ρ c (Proc.devRef .tc main_v24) : S100000x64.Idx → EReal) (ix2 p q)
      = Cert.Gcn.scaled (dv m c) (Cert.Gcn.lin (h1 m c) (w2 m c)) p q := by
  refine (congrFun (W4_arr m ρ c 5) (ix2 p q)).trans ?_
  rw [hR.r1 (V3 m ρ) c p q]
  dsimp only [V3]
  rw [W3_v11, W3_v12, W3_arg5]
  unfold out1
  rw [W1_v11]
  unfold Cert.Gcn.scaled Cert.Gcn.lin
  refine congrArg (fun x => x * dv m c p) ?_
  refine Finset.sum_congr rfl fun k _ => ?_
  rw [W3_v22 hR, W2_v12 hR, W3_v23]
  rfl

/-! ## After stretch 2 -/

theorem W5_v11 : W5 m ρ c (Proc.devRef .tc main_v11) = W1 m ρ c (Proc.devRef .tc main_v11) := (ops2_main_v11 (W4 m ρ c)).trans (W4_v11 m ρ c)
theorem W5_v24 : W5 m ρ c (Proc.devRef .tc main_v24) = W4 m ρ c (Proc.devRef .tc main_v24) := ops2_main_v24 (W4 m ρ c)

include hR in
/-- The second aggregate. -/
theorem W5_v34 (n : Fin 100000) (q : Fin 64) :
    (W5 m ρ c (Proc.devRef .tc main_v34) : S100000x64.Idx → EReal) (ix2 n q)
      = Cert.Gcn.agg (src m c) (dst m c) (Cert.Gcn.scaled (dv m c) (Cert.Gcn.lin (h1 m c) (w2 m c))) n q := by
  refine (congrFun (ops2_v34 (W4 m ρ c)) (ix2 n q)).trans ?_
  rw [aggregate_apply, W4_v1, W4_v3]
  simp only [W1_v1 m ρ c, W1_v3 m ρ c, W4_v24 hR m ρ c]

/-- The second bias as a row. -/
theorem W5_v35 (u : Fin 1) (k : Fin 64) : (W5 m ρ c (Proc.devRef .tc main_v35) : S1x64.Idx → EReal) (ix2 u k) = bb2 m c k := by
  refine (congrFun (ops2_v35 (W4 m ρ c)) (ix2 u k)).trans ?_
  rw [biasRow_apply, W4_arg6]
  rfl

/-! ## After region 2 -/

include hR in
/-- Region 2's output: the second layer. -/
theorem W6_v36 (p : Fin 100000) (q : Fin 64) :
    (W6 m ρ c (Proc.devRef .tc main_v36) : S100000x64.Idx → EReal) (ix2 p q)
      = Cert.Gcn.twoK (src m c) (dst m c) (xX m c) (w1 m c) (bb1 m c) (w2 m c) (bb2 m c) p q := by
  refine (congrFun (W6_arr m ρ c 4) (ix2 p q)).trans ?_
  rw [hR.r2 (V5 m ρ) c p q]
  dsimp only [V5]
  rw [W5_v11, W5_v24]
  unfold out2
  rw [W1_v11, W5_v34 hR, W4_v24 hR, W5_v35]
  rfl

/-! ## After stretch 3 -/

theorem W6_arg2 : W6 m ρ c (Proc.devRef .tc main_arg2) = m ((c : Thread nD τ).loc main_arg2) :=
  (ops3_main_arg2 (W6 m ρ c)).symm.trans (W7_main_arg2 m ρ c)
theorem W6_arg7 : W6 m ρ c (Proc.devRef .tc main_arg7) = m ((c : Thread nD τ).loc main_arg7) :=
  (ops3_main_arg7 (W6 m ρ c)).symm.trans (W7_main_arg7 m ρ c)
theorem W6_arg8 : W6 m ρ c (Proc.devRef .tc main_arg8) = m ((c : Thread nD τ).loc main_arg8) :=
  (ops3_main_arg8 (W6 m ρ c)).symm.trans (W7_main_arg8 m ρ c)

/-- THE RESULT: the head of the third region's output array. -/
theorem W7_v52 : W7 m ρ c (Proc.devRef .tc main_v52)
    = Cert.PoolHead.headK (W6 m ρ c (Proc.devRef .tc main_v36)) (m ((c : Thread nD τ).loc main_arg2))
        (m ((c : Thread nD τ).loc main_arg7)) (m ((c : Thread nD τ).loc main_arg8)) := by
  refine (ops3_v52 (W6 m ρ c)).trans ?_
  rw [W6_arg2, W6_arg7, W6_arg8]

end Cert.KernelIdeal.Fold

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.RegionValues.lean ====
/-
  The three pipelined regions of the kernel, read at an entry of their output arrays.

  Each region runs over a grid of 20 points; point t handles rows 5000 t … 5000 t + 4999 of every row-tiled array and the
  whole of every small operand.  What a point writes back is the body's arithmetic on the blocks it loaded, and the
  blocks are restrictions of the arrays, so every output array ends as ONE function of the arrays the region found:

    region 0:  out (p, q) = (Σ k, x (p, k) · w (k, q)) · d (p, 0)
    region 1:  out (p, q) = (Σ k, max (d (p, 0) · (a (p, k) + b (p, k)) + bias (0, k)) 0 · w (k, q)) · d (p, 0)
    region 2:  out (p, q) = max (d (p, 0) · (a (p, q) + b (p, q)) + bias (0, q)) 0

  On the extended reals a rounding to a narrower format is the identity, so a product of rounded operands into the zero
  accumulator is the plain sum over the contracted coordinate.
-/
import proofs.«134846_j47244640256095_2_alg».proof.Proof.Patched.KernelIdeal.Frame
import proofs.«134846_j47244640256095_2_alg».proof.Proof.RegionOut
import proofs.«134846_j47244640256095_2_alg».proof.Proof.LibKeepdims
import proofs.«134846_j47244640256095_2_alg».proof.Proof.LibPlainDot
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat)
open Cert.KernelIdeal.RegionOut

/-! ## The bodies' arithmetic at an entry of the block -/

/-- Region 0's block: the rows' product with the weights, each row scaled by its entry of the column `d`. -/
theorem pay0_apply (x : Vec Ideal S5000x5 .f32) (w : Vec Ideal S5x64 .f32) (d : Vec Ideal S5000x1 .f32)
    (r : Fin 5000) (q : Fin 64) :
    (k0_pay1 (F := Ideal) x w d : S5000x64.Idx → EReal) (ix2 r q)
      = (∑ k : Fin 5, x (ix2 r k) * w (ix2 k q)) * d (ix2 r 0) := by
  unfold k0_pay1
  rw [shapeCast_self, mulf_apply]
  rw [Cert.LibKeepdims.broadcastTo_a1_ab_apply d broadcasts_S5000x1_S5000x64 r q]
  refine congrArg (· * d (ix2 r 0)) ?_
  exact Cert.LibPlainDot.matmul_zero_apply dot_S5000x5_S5x64_S5000x64_1_0_0_1_n_n rfl rfl rfl rfl rfl rfl none
    (truncf .bf16 x bitsLt_bf16_f32) (truncf .bf16 w bitsLt_bf16_f32) r q

/-- Region 1's block: the rectified, scaled and shifted sum of the two inputs, multiplied into the weights, each row
    scaled by its entry of the column `d'` (the body loads the same column twice). -/
theorem pay1_apply (d : Vec Ideal S5000x1 .f32) (a b : Vec Ideal S5000x64 .f32) (bias : Vec Ideal S1x64 .f32)
    (w : Vec Ideal S64x64 .f32) (d' : Vec Ideal S5000x1 .f32) (r : Fin 5000) (q : Fin 64) :
    (k1_pay1 (F := Ideal) d a b bias w d' : S5000x64.Idx → EReal) (ix2 r q)
      = (∑ k : Fin 64, max (d (ix2 r 0) * (a (ix2 r k) + b (ix2 r k)) + bias (ix2 0 k)) 0 * w (ix2 k q))
          * d' (ix2 r 0) := by
  unfold k1_pay1
  rw [shapeCast_self, shapeCast_self, shapeCast_self, shapeCast_self, shapeCast_self, mulf_apply]
  rw [Cert.LibKeepdims.broadcastTo_a1_ab_apply d' broadcasts_S5000x1_S5000x64 r q]
  refine congrArg (· * d' (ix2 r 0)) ?_
  refine (Cert.LibPlainDot.matmul_zero_apply dot_S5000x64_S64x64_S5000x64_1_0_0_1_n_n rfl rfl rfl rfl rfl rfl none _ _ r q).trans ?_
  refine Finset.sum_congr rfl fun k _ => ?_
  refine congrArg (· * w (ix2 k q)) ?_
  show max (broadcastTo S5000x64 d broadcasts_S5000x1_S5000x64 (ix2 r k) * (a (ix2 r k) + b (ix2 r k))
      + broadcastTo S5000x64 bias broadcasts_S1x64_S5000x64 (ix2 r k)) (Ideal.ofBits .f32 0x00000000#32) = _
  rw [Cert.LibKeepdims.broadcastTo_a1_ab_apply d broadcasts_S5000x1_S5000x64 r k, broadcastTo_1b_ab_apply bias broadcasts_S1x64_S5000x64 r k]
  exact congrArg (max _) Ideal.ofBits_zero_f32

/-- Region 2's block: the rectified, scaled and shifted sum of the two inputs. -/
theorem pay2_apply (d : Vec Ideal S5000x1 .f32) (a b : Vec Ideal S5000x64 .f32) (bias : Vec Ideal S1x64 .f32)
    (r : Fin 5000) (q : Fin 64) :
    (k2_pay1 (F := Ideal) d a b bias : S5000x64.Idx → EReal) (ix2 r q)
      = max (d (ix2 r 0) * (a (ix2 r q) + b (ix2 r q)) + bias (ix2 0 q)) 0 := by
  unfold k2_pay1
  rw [shapeCast_self, shapeCast_self, shapeCast_self, shapeCast_self]
  rw [maximumf_apply, addf_apply, mulf_apply, addf_apply, broadcast_apply]
  rw [Cert.LibKeepdims.broadcastTo_a1_ab_apply d broadcasts_S5000x1_S5000x64 r q, broadcastTo_1b_ab_apply bias broadcasts_S1x64_S5000x64 r q]
  exact congrArg (max _) Ideal.ofBits_zero_f32

/-! ## A block's entry as the array's: the same arithmetic, with every load read off its array -/

/-- Region 0: if row `r` of the feature block is row `p` of the features, the weights block is the weights, and row `r`
    of the column block is row `p` of the column, the block's entry `(r, q)` is the array function at `(p, q)`. -/
theorem pay0_blk (x : Vec Ideal S5000x5 .f32) (w : Vec Ideal S5x64 .f32) (d : Vec Ideal S5000x1 .f32)
    (X : S100000x5.Idx → EReal) (W : S5x64.Idx → EReal) (D : S100000x1.Idx → EReal)
    (r : Fin 5000) (q : Fin 64) (p : Fin 100000)
    (hx : ∀ k : Fin 5, x (ix2 r k) = X (ix2 p k)) (hw : ∀ k : Fin 5, w (ix2 k q) = W (ix2 k q))
    (hd : d (ix2 r 0) = D (ix2 p 0)) :
    (k0_pay1 (F := Ideal) x w d : S5000x64.Idx → EReal) (ix2 r q) = out0 X W D p q := by
  refine (pay0_apply x w d r q).trans ?_
  unfold out0
  rw [hd]
  exact congrArg (· * D (ix2 p 0)) (Finset.sum_congr rfl fun k _ => by rw [hx k, hw k])

/-- Region 1, likewise; the body loads the column twice, and both loads are row `p` of the column. -/
theorem pay1_blk (d : Vec Ideal S5000x1 .f32) (a b : Vec Ideal S5000x64 .f32) (bias : Vec Ideal S1x64 .f32)
    (w : Vec Ideal S64x64 .f32) (d' : Vec Ideal S5000x1 .f32)
    (D : S100000x1.Idx → EReal) (A B : S100000x64.Idx → EReal) (Bias : S1x64.Idx → EReal) (W : S64x64.Idx → EReal)
    (r : Fin 5000) (q : Fin 64) (p : Fin 100000)
    (hd : d (ix2 r 0) = D (ix2 p 0)) (ha : ∀ k : Fin 64, a (ix2 r k) = A (ix2 p k))
    (hb : ∀ k : Fin 64, b (ix2 r k) = B (ix2 p k)) (hbias : ∀ k : Fin 64, bias (ix2 0 k) = Bias (ix2 0 k))
    (hw : ∀ k : Fin 64, w (ix2 k q) = W (ix2 k q)) (hd' : d' (ix2 r 0) = D (ix2 p 0)) :
    (k1_pay1 (F := Ideal) d a b bias w d' : S5000x64.Idx → EReal) (ix2 r q) = out1 D A B Bias W p q := by
  refine (pay1_apply d a b bias w d' r q).trans ?_
  unfold out1
  rw [hd, hd']
  exact congrArg (· * D (ix2 p 0)) (Finset.sum_congr rfl fun k _ => by rw [ha k, hb k, hbias k, hw k])

/-- Region 2, likewise. -/
theorem pay2_blk (d : Vec Ideal S5000x1 .f32) (a b : Vec Ideal S5000x64 .f32) (bias : Vec Ideal S1x64 .f32)
    (D : S100000x1.Idx → EReal) (A B : S100000x64.Idx → EReal) (Bias : S1x64.Idx → EReal)
    (r : Fin 5000) (q : Fin 64) (p : Fin 100000)
    (hd : d (ix2 r 0) = D (ix2 p 0)) (ha : a (ix2 r q) = A (ix2 p q)) (hb : b (ix2 r q) = B (ix2 p q))
    (hbias : bias (ix2 0 q) = Bias (ix2 0 q)) :
    (k2_pay1 (F := Ideal) d a b bias : S5000x64.Idx → EReal) (ix2 r q) = out2 D A B Bias p q := by
  refine (pay2_apply d a b bias r q).trans ?_
  unfold out2
  rw [hd, ha, hb, hbias]

/-! ## From blocks to arrays -/

/-- The zero offsets of a whole-block access. -/
theorem hz : (![0, 0] : Fin 2 → Nat) = fun _ => 0 := funext fun a => by fin_cases a <;> rfl

/-- Row `r` of the `t`-th block of 5000 rows, of 20. -/
def tileRow (t : ℕ) (ht : t < 20) (r : Fin 5000) : Fin 100000 := ⟨5000 * t + r.val, by have := r.isLt; omega⟩

variable (V : (c : Dev nD) → (b : Ref sig .tc) → Buf (Elt Ideal) ((c : Thread nD τ).loc b)) (c : Dev nD)

/-! ### Region 0: the features' product with the first weights, rows scaled -/

/-- Region 0's grid has 20 points. -/
theorem lt_N0 (t : Fin cfg0.N) : t.val < 20 := lt_of_lt_of_eq t.isLt N_0

/-- What region 0's output array ends holding, as one function of the array's index. -/
def G0 : S100000x64.Idx → EReal := fun i => out0 (V c main_arg0) (V c main_arg3) (V c main_v11) (i 0) (i 1)

/-- Window 0 sits at block (t, 0) at point `t`. -/
theorem idx0_0 : ∀ t : Fin cfg0.N, win0_0.index t (0 : Fin 2) = t.val ∧ win0_0.index t (1 : Fin 2) = 0 :=
  (by decide +kernel : ∀ t : Fin grid0.N, _)

/-- Window 0's block at point `t` is rows 5000 t … 5000 t + 4999 of the features. -/
theorem iblk0_0_apply (t : Fin cfg0.N) (r : Fin 5000) (q : Fin 5) :
    (iblk0 V c 0 t : S5000x5.Idx → EReal) (ix2 r q)
      = (V c main_arg0 : S100000x5.Idx → EReal) (ix2 (tileRow t.val (lt_N0 t) r) q) := by
  obtain ⟨e0, e1⟩ := idx0_0 t
  unfold iblk0
  rw [View.read_apply]
  refine congrArg (V c main_arg0 : S100000x5.Idx → EReal) ?_
  funext a
  apply Fin.ext
  match a with
  | ⟨0, _⟩ => show win0_0.index t (0 : Fin 2) * 5000 + 1 * r.val = 5000 * t.val + r.val; omega
  | ⟨1, _⟩ => show win0_0.index t (1 : Fin 2) * 5 + 1 * q.val = q.val; omega

/-- Window 1 sits at block (0, 0) at every point. -/
theorem idx0_1 : ∀ t : Fin cfg0.N, win0_1.index t (0 : Fin 2) = 0 ∧ win0_1.index t (1 : Fin 2) = 0 :=
  (by decide +kernel : ∀ t : Fin grid0.N, _)

/-- Window 1's block at every point is the whole of the weights. -/
theorem iblk0_1_apply (t : Fin cfg0.N) (u : Fin 5) (q : Fin 64) :
    (iblk0 V c 1 t : S5x64.Idx → EReal) (ix2 u q) = (V c main_arg3 : S5x64.Idx → EReal) (ix2 u q) := by
  obtain ⟨e0, e1⟩ := idx0_1 t
  unfold iblk0
  rw [View.read_apply]
  refine congrArg (V c main_arg3 : S5x64.Idx → EReal) ?_
  funext a
  apply Fin.ext
  match a with
  | ⟨0, _⟩ => show win0_1.index t (0 : Fin 2) * 5 + 1 * u.val = u.val; omega
  | ⟨1, _⟩ => show win0_1.index t (1 : Fin 2) * 64 + 1 * q.val = q.val; omega

/-- Window 2 sits at block (t, 0) at point `t`. -/
theorem idx0_2 : ∀ t : Fin cfg0.N, win0_2.index t (0 : Fin 2) = t.val ∧ win0_2.index t (1 : Fin 2) = 0 :=
  (by decide +kernel : ∀ t : Fin grid0.N, _)

/-- Window 2's block at point `t` is rows 5000 t … 5000 t + 4999 of the column. -/
theorem iblk0_2_apply (t : Fin cfg0.N) (r : Fin 5000) (q : Fin 1) :
    (iblk0 V c 2 t : S5000x1.Idx → EReal) (ix2 r q)
      = (V c main_v11 : S100000x1.Idx → EReal) (ix2 (tileRow t.val (lt_N0 t) r) q) := by
  obtain ⟨e0, e1⟩ := idx0_2 t
  unfold iblk0
  rw [View.read_apply]
  refine congrArg (V c main_v11 : S100000x1.Idx → EReal) ?_
  funext a
  apply Fin.ext
  match a with
  | ⟨0, _⟩ => show win0_2.index t (0 : Fin 2) * 5000 + 1 * r.val = 5000 * t.val + r.val; omega
  | ⟨1, _⟩ => show win0_2.index t (1 : Fin 2) * 1 + 1 * q.val = q.val; omega

/-- The output window sits at block (t, 0) at point `t`. -/
theorem idx0_3 : ∀ t : Fin cfg0.N, win0_3.index t (0 : Fin 2) = t.val ∧ win0_3.index t (1 : Fin 2) = 0 :=
  (by decide +kernel : ∀ t : Fin grid0.N, _)

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Row `p` lies in the block of point `p / 5000`: the blocks cover the array. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 5000 < cfg0.N := by rw [show cfg0.N = 20 from N_0]; omega
  obtain ⟨e0, e1⟩ := idx0_3 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e1]; omega

/-- What point `t` writes back is block `t` of `G0`. -/
theorem flushed0_eq (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S5000x5) hz, View.ld_unit_zero (S := S5x64) hz, View.ld_unit_zero (S := S5000x1) hz]
  funext j
  obtain ⟨r, q, rfl⟩ : ∃ (r : Fin 5000) (q : Fin 64), j = ix2 r q := ⟨j 0, j 1, eq_ix2 j⟩
  refine (pay0_blk (iblk0 V c 0 t) (iblk0 V c 1 t) (iblk0 V c 2 t) (V c main_arg0) (V c main_arg3) (V c main_v11) r q
    (tileRow t.val (lt_N0 t) r) (fun k => iblk0_0_apply V c t r k) (fun k => iblk0_1_apply V c t k q) (iblk0_2_apply V c t r 0)).trans ?_
  obtain ⟨e0, e1⟩ := idx0_3 t
  rw [View.read_apply]
  show out0 (V c main_arg0) (V c main_arg3) (V c main_v11) (tileRow t.val (lt_N0 t) r) q = out0 (V c main_arg0) (V c main_arg3) (V c main_v11) _ _
  refine congr (congrArg (out0 (V c main_arg0) (V c main_arg3) (V c main_v11)) (Fin.ext ?_)) (Fin.ext ?_)
  · show 5000 * t.val + r.val = win0_3.index t (0 : Fin 2) * 5000 + 1 * r.val; omega
  · show q.val = win0_3.index t (1 : Fin 2) * 64 + 1 * q.val; omega

/-- The blocks cover the array, which therefore ends holding `G0`. -/
theorem final0 : (dat0 V c).arrAt 3 cfg0.N = G0 V c :=
  (dat0 V c).arrAt_eq_of_cover 3 (G0 V c) (fun t _ => flushed0_eq V c t) cover0

/-- Region 0's output array at an entry. -/
theorem region0_apply (p : Fin 100000) (q : Fin 64) :
    ((dat0 (F := Ideal) V c).arrAt 3 cfg0.N : S100000x64.Idx → EReal) (ix2 p q)
      = out0 (V c main_arg0) (V c main_arg3) (V c main_v11) p q := by
  rw [final0 V c]; rfl

/-! ### Region 1: the first layer finished, the second layer's product started and scaled -/

/-- Region 1's grid has 20 points. -/
theorem lt_N1 (t : Fin cfg1.N) : t.val < 20 := lt_of_lt_of_eq t.isLt N_1

/-- What region 1's output array ends holding, as one function of the array's index. -/
def G1 : S100000x64.Idx → EReal := fun i => out1 (V c main_v11) (V c main_v22) (V c main_v12) (V c main_v23) (V c main_arg5) (i 0) (i 1)

/-- Window 0 sits at block (t, 0) at point `t`. -/
theorem idx1_0 : ∀ t : Fin cfg1.N, win1_0.index t (0 : Fin 2) = t.val ∧ win1_0.index t (1 : Fin 2) = 0 :=
  (by decide +kernel : ∀ t : Fin grid1.N, _)

/-- Window 0's block at point `t` is rows 5000 t … 5000 t + 4999 of the summed rows. -/
theorem iblk1_0_apply (t : Fin cfg1.N) (r : Fin 5000) (q : Fin 64) :
    (iblk1 V c 0 t : S5000x64.Idx → EReal) (ix2 r q)
      = (V c main_v22 : S100000x64.Idx → EReal) (ix2 (tileRow t.val (lt_N1 t) r) q) := by
  obtain ⟨e0, e1⟩ := idx1_0 t
  unfold iblk1
  rw [View.read_apply]
  refine congrArg (V c main_v22 : S100000x64.Idx → EReal) ?_
  funext a
  apply Fin.ext
  match a with
  | ⟨0, _⟩ => show win1_0.index t (0 : Fin 2) * 5000 + 1 * r.val = 5000 * t.val + r.val; omega
  | ⟨1, _⟩ => show win1_0.index t (1 : Fin 2) * 64 + 1 * q.val = q.val; omega

/-- Window 1 sits at block (t, 0) at point `t`. -/
theorem idx1_1 : ∀ t : Fin cfg1.N, win1_1.index t (0 : Fin 2) = t.val ∧ win1_1.index t (1 : Fin 2) = 0 :=
  (by decide +kernel : ∀ t : Fin grid1.N, _)

/-- Window 1's block at point `t` is rows 5000 t … 5000 t + 4999 of the scaled rows. -/
theorem iblk1_1_apply (t : Fin cfg1.N) (r : Fin 5000) (q : Fin 64) :
    (iblk1 V c 1 t : S5000x64.Idx → EReal) (ix2 r q)
      = (V c main_v12 : S100000x64.Idx → EReal) (ix2 (tileRow t.val (lt_N1 t) r) q) := by
  obtain ⟨e0, e1⟩ := idx1_1 t
  unfold iblk1
  rw [View.read_apply]
  refine congrArg (V c main_v12 : S100000x64.Idx → EReal) ?_
  funext a
  apply Fin.ext
  match a with
  | ⟨0, _⟩ => show win1_1.index t (0 : Fin 2) * 5000 + 1 * r.val = 5000 * t.val + r.val; omega
  | ⟨1, _⟩ => show win1_1.index t (1 : Fin 2) * 64 + 1 * q.val = q.val; omega

/-- Window 2 sits at block (t, 0) at point `t`. -/
theorem idx1_2 : ∀ t : Fin cfg1.N, win1_2.index t (0 : Fin 2) = t.val ∧ win1_2.index t (1 : Fin 2) = 0 :=
  (by decide +kernel : ∀ t : Fin grid1.N, _)

/-- Window 2's block at point `t` is rows 5000 t … 5000 t + 4999 of the column. -/
theorem iblk1_2_apply (t : Fin cfg1.N) (r : Fin 5000) (q : Fin 1) :
    (iblk1 V c 2 t : S5000x1.Idx → EReal) (ix2 r q)
      = (V c main_v11 : S100000x1.Idx → EReal) (ix2 (tileRow t.val (lt_N1 t) r) q) := by
  obtain ⟨e0, e1⟩ := idx1_2 t
  unfold iblk1
  rw [View.read_apply]
  refine congrArg (V c main_v11 : S100000x1.Idx → EReal) ?_
  funext a
  apply Fin.ext
  match a with
  | ⟨0, _⟩ => show win1_2.index t (0 : Fin 2) * 5000 + 1 * r.val = 5000 * t.val + r.val; omega
  | ⟨1, _⟩ => show win1_2.index t (1 : Fin 2) * 1 + 1 * q.val = q.val; omega

/-- Window 3 sits at block (0, 0) at every point. -/
theorem idx1_3 : ∀ t : Fin cfg1.N, win1_3.index t (0 : Fin 2) = 0 ∧ win1_3.index t (1 : Fin 2) = 0 :=
  (by decide +kernel : ∀ t : Fin grid1.N, _)

/-- Window 3's block at every point is the whole of the bias row. -/
theorem iblk1_3_apply (t : Fin cfg1.N) (u : Fin 1) (q : Fin 64) :
    (iblk1 V c 3 t : S1x64.Idx → EReal) (ix2 u q) = (V c main_v23 : S1x64.Idx → EReal) (ix2 u q) := by
  obtain ⟨e0, e1⟩ := idx1_3 t
  unfold iblk1
  rw [View.read_apply]
  refine congrArg (V c main_v23 : S1x64.Idx → EReal) ?_
  funext a
  apply Fin.ext
  match a with
  | ⟨0, _⟩ => show win1_3.index t (0 : Fin 2) * 1 + 1 * u.val = u.val; omega
  | ⟨1, _⟩ => show win1_3.index t (1 : Fin 2) * 64 + 1 * q.val = q.val; omega

/-- Window 4 sits at block (0, 0) at every point. -/
theorem idx1_4 : ∀ t : Fin cfg1.N, win1_4.index t (0 : Fin 2) = 0 ∧ win1_4.index t (1 : Fin 2) = 0 :=
  (by decide +kernel : ∀ t : Fin grid1.N, _)

/-- Window 4's block at every point is the whole of the weights. -/
theorem iblk1_4_apply (t : Fin cfg1.N) (u : Fin 64) (q : Fin 64) :
    (iblk1 V c 4 t : S64x64.Idx → EReal) (ix2 u q) = (V c main_arg5 : S64x64.Idx → EReal) (ix2 u q) := by
  obtain ⟨e0, e1⟩ := idx1_4 t
  unfold iblk1
  rw [View.read_apply]
  refine congrArg (V c main_arg5 : S64x64.Idx → EReal) ?_
  funext a
  apply Fin.ext
  match a with
  | ⟨0, _⟩ => show win1_4.index t (0 : Fin 2) * 64 + 1 * u.val = u.val; omega
  | ⟨1, _⟩ => show win1_4.index t (1 : Fin 2) * 64 + 1 * q.val = q.val; omega

/-- The output window sits at block (t, 0) at point `t`. -/
theorem idx1_5 : ∀ t : Fin cfg1.N, win1_5.index t (0 : Fin 2) = t.val ∧ win1_5.index t (1 : Fin 2) = 0 :=
  (by decide +kernel : ∀ t : Fin grid1.N, _)

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v24).slice (win1_5.rect t)).set ↔ _
  rw [View.set_slice_whole, Rect.mem_set_unit]
  exact Iff.rfl

/-- Row `p` lies in the block of point `p / 5000`: the blocks cover the array. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have ht : (i 0).val / 5000 < cfg1.N := by rw [show cfg1.N = 20 from N_1]; omega
  obtain ⟨e0, e1⟩ := idx1_5 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e1]; omega

/-- What point `t` writes back is block `t` of `G1`. -/
theorem flushed1_eq (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz, View.ld_unit_zero (S := S64x64) hz]
  funext j
  obtain ⟨r, q, rfl⟩ : ∃ (r : Fin 5000) (q : Fin 64), j = ix2 r q := ⟨j 0, j 1, eq_ix2 j⟩
  refine (pay1_blk (iblk1 V c 2 t) (iblk1 V c 0 t) (iblk1 V c 1 t) (iblk1 V c 3 t) (iblk1 V c 4 t) (iblk1 V c 2 t)
    (V c main_v11) (V c main_v22) (V c main_v12) (V c main_v23) (V c main_arg5) r q (tileRow t.val (lt_N1 t) r)
    (iblk1_2_apply V c t r 0) (fun k => iblk1_0_apply V c t r k) (fun k => iblk1_1_apply V c t r k)
    (fun k => iblk1_3_apply V c t 0 k) (fun k => iblk1_4_apply V c t k q) (iblk1_2_apply V c t r 0)).trans ?_
  obtain ⟨e0, e1⟩ := idx1_5 t
  rw [View.read_apply]
  show out1 (V c main_v11) (V c main_v22) (V c main_v12) (V c main_v23) (V c main_arg5) (tileRow t.val (lt_N1 t) r) q = out1 (V c main_v11) (V c main_v22) (V c main_v12) (V c main_v23) (V c main_arg5) _ _
  refine congr (congrArg (out1 (V c main_v11) (V c main_v22) (V c main_v12) (V c main_v23) (V c main_arg5)) (Fin.ext ?_)) (Fin.ext ?_)
  · show 5000 * t.val + r.val = win1_5.index t (0 : Fin 2) * 5000 + 1 * r.val; omega
  · show q.val = win1_5.index t (1 : Fin 2) * 64 + 1 * q.val; omega

/-- The blocks cover the array, which therefore ends holding `G1`. -/
theorem final1 : (dat1 V c).arrAt 5 cfg1.N = G1 V c :=
  (dat1 V c).arrAt_eq_of_cover 5 (G1 V c) (fun t _ => flushed1_eq V c t) cover1

/-- Region 1's output array at an entry. -/
theorem region1_apply (p : Fin 100000) (q : Fin 64) :
    ((dat1 (F := Ideal) V c).arrAt 5 cfg1.N : S100000x64.Idx → EReal) (ix2 p q)
      = out1 (V c main_v11) (V c main_v22) (V c main_v12) (V c main_v23) (V c main_arg5) p q := by
  rw [final1 V c]; rfl

/-! ### Region 2: the second layer finished -/

/-- Region 2's grid has 20 points. -/
theorem lt_N2 (t : Fin cfg2.N) : t.val < 20 := lt_of_lt_of_eq t.isLt N_2

/-- What region 2's output array ends holding, as one function of the array's index. -/
def G2 : S100000x64.Idx → EReal := fun i => out2 (V c main_v11) (V c main_v34) (V c main_v24) (V c main_v35) (i 0) (i 1)

/-- Window 0 sits at block (t, 0) at point `t`. -/
theorem idx2_0 : ∀ t : Fin cfg2.N, win2_0.index t (0 : Fin 2) = t.val ∧ win2_0.index t (1 : Fin 2) = 0 :=
  (by decide +kernel : ∀ t : Fin grid2.N, _)

/-- Window 0's block at point `t` is rows 5000 t … 5000 t + 4999 of the summed rows. -/
theorem iblk2_0_apply (t : Fin cfg2.N) (r : Fin 5000) (q : Fin 64) :
    (iblk2 V c 0 t : S5000x64.Idx → EReal) (ix2 r q)
      = (V c main_v34 : S100000x64.Idx → EReal) (ix2 (tileRow t.val (lt_N2 t) r) q) := by
  obtain ⟨e0, e1⟩ := idx2_0 t
  unfold iblk2
  rw [View.read_apply]
  refine congrArg (V c main_v34 : S100000x64.Idx → EReal) ?_
  funext a
  apply Fin.ext
  match a with
  | ⟨0, _⟩ => show win2_0.index t (0 : Fin 2) * 5000 + 1 * r.val = 5000 * t.val + r.val; omega
  | ⟨1, _⟩ => show win2_0.index t (1 : Fin 2) * 64 + 1 * q.val = q.val; omega

/-- Window 1 sits at block (t, 0) at point `t`. -/
theorem idx2_1 : ∀ t : Fin cfg2.N, win2_1.index t (0 : Fin 2) = t.val ∧ win2_1.index t (1 : Fin 2) = 0 :=
  (by decide +kernel : ∀ t : Fin grid2.N, _)

/-- Window 1's block at point `t` is rows 5000 t … 5000 t + 4999 of the scaled rows. -/
theorem iblk2_1_apply (t : Fin cfg2.N) (r : Fin 5000) (q : Fin 64) :
    (iblk2 V c 1 t : S5000x64.Idx → EReal) (ix2 r q)
      = (V c main_v24 : S100000x64.Idx → EReal) (ix2 (tileRow t.val (lt_N2 t) r) q) := by
  obtain ⟨e0, e1⟩ := idx2_1 t
  unfold iblk2
  rw [View.read_apply]
  refine congrArg (V c main_v24 : S100000x64.Idx → EReal) ?_
  funext a
  apply Fin.ext
  match a with
  | ⟨0, _⟩ => show win2_1.index t (0 : Fin 2) * 5000 + 1 * r.val = 5000 * t.val + r.val; omega
  | ⟨1, _⟩ => show win2_1.index t (1 : Fin 2) * 64 + 1 * q.val = q.val; omega

/-- Window 2 sits at block (t, 0) at point `t`. -/
theorem idx2_2 : ∀ t : Fin cfg2.N, win2_2.index t (0 : Fin 2) = t.val ∧ win2_2.index t (1 : Fin 2) = 0 :=
  (by decide +kernel : ∀ t : Fin grid2.N, _)

/-- Window 2's block at point `t` is rows 5000 t … 5000 t + 4999 of the column. -/
theorem iblk2_2_apply (t : Fin cfg2.N) (r : Fin 5000) (q : Fin 1) :
    (iblk2 V c 2 t : S5000x1.Idx → EReal) (ix2 r q)
      = (V c main_v11 : S100000x1.Idx → EReal) (ix2 (tileRow t.val (lt_N2 t) r) q) := by
  obtain ⟨e0, e1⟩ := idx2_2 t
  unfold iblk2
  rw [View.read_apply]
  refine congrArg (V c main_v11 : S100000x1.Idx → EReal) ?_
  funext a
  apply Fin.ext
  match a with
  | ⟨0, _⟩ => show win2_2.index t (0 : Fin 2) * 5000 + 1 * r.val = 5000 * t.val + r.val; omega
  | ⟨1, _⟩ => show win2_2.index t (1 : Fin 2) * 1 + 1 * q.val = q.val; omega

/-- Window 3 sits at block (0, 0) at every point. -/
theorem idx2_3 : ∀ t : Fin cfg2.N, win2_3.index t (0 : Fin 2) = 0 ∧ win2_3.index t (1 : Fin 2) = 0 :=
  (by decide +kernel : ∀ t : Fin grid2.N, _)

/-- Window 3's block at every point is the whole of the bias row. -/
theorem iblk2_3_apply (t : Fin cfg2.N) (u : Fin 1) (q : Fin 64) :
    (iblk2 V c 3 t : S1x64.Idx → EReal) (ix2 u q) = (V c main_v35 : S1x64.Idx → EReal) (ix2 u q) := by
  obtain ⟨e0, e1⟩ := idx2_3 t
  unfold iblk2
  rw [View.read_apply]
  refine congrArg (V c main_v35 : S1x64.Idx → EReal) ?_
  funext a
  apply Fin.ext
  match a with
  | ⟨0, _⟩ => show win2_3.index t (0 : Fin 2) * 1 + 1 * u.val = u.val; omega
  | ⟨1, _⟩ => show win2_3.index t (1 : Fin 2) * 64 + 1 * q.val = q.val; omega

/-- The output window sits at block (t, 0) at point `t`. -/
theorem idx2_4 : ∀ t : Fin cfg2.N, win2_4.index t (0 : Fin 2) = t.val ∧ win2_4.index t (1 : Fin 2) = 0 :=
  (by decide +kernel : ∀ t : Fin grid2.N, _)

/-- An index of the output array is in point `t`'s block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v36).slice (win2_4.rect t)).set ↔ _
  rw [View.set_slice_whole, Rect.mem_set_unit]
  exact Iff.rfl

/-- Row `p` lies in the block of point `p / 5000`: the blocks cover the array. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have ht : (i 0).val / 5000 < cfg2.N := by rw [show cfg2.N = 20 from N_2]; omega
  obtain ⟨e0, e1⟩ := idx2_4 ⟨(i 0).val / 5000, ht⟩
  refine ⟨⟨(i 0).val / 5000, ht⟩, flush2_4 _, ?_⟩
  rw [mem_blk2]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val ∧ (i 1).val < win2_4.index ⟨(i 0).val / 5000, ht⟩ (1 : Fin 2) * 64 + 64
    rw [e1]; omega

/-- What point `t` writes back is block `t` of `G2`. -/
theorem flushed2_eq (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S1x64) hz]
  funext j
  obtain ⟨r, q, rfl⟩ : ∃ (r : Fin 5000) (q : Fin 64), j = ix2 r q := ⟨j 0, j 1, eq_ix2 j⟩
  refine (pay2_blk (iblk2 V c 2 t) (iblk2 V c 0 t) (iblk2 V c 1 t) (iblk2 V c 3 t)
    (V c main_v11) (V c main_v34) (V c main_v24) (V c main_v35) r q (tileRow t.val (lt_N2 t) r)
    (iblk2_2_apply V c t r 0) (iblk2_0_apply V c t r q) (iblk2_1_apply V c t r q) (iblk2_3_apply V c t 0 q)).trans ?_
  obtain ⟨e0, e1⟩ := idx2_4 t
  rw [View.read_apply]
  show out2 (V c main_v11) (V c main_v34) (V c main_v24) (V c main_v35) (tileRow t.val (lt_N2 t) r) q = out2 (V c main_v11) (V c main_v34) (V c main_v24) (V c main_v35) _ _
  refine congr (congrArg (out2 (V c main_v11) (V c main_v34) (V c main_v24) (V c main_v35)) (Fin.ext ?_)) (Fin.ext ?_)
  · show 5000 * t.val + r.val = win2_4.index t (0 : Fin 2) * 5000 + 1 * r.val; omega
  · show q.val = win2_4.index t (1 : Fin 2) * 64 + 1 * q.val; omega

/-- The blocks cover the array, which therefore ends holding `G2`. -/
theorem final2 : (dat2 V c).arrAt 4 cfg2.N = G2 V c :=
  (dat2 V c).arrAt_eq_of_cover 4 (G2 V c) (fun t _ => flushed2_eq V c t) cover2

/-- Region 2's output array at an entry. -/
theorem region2_apply (p : Fin 100000) (q : Fin 64) :
    ((dat2 (F := Ideal) V c).arrAt 4 cfg2.N : S100000x64.Idx → EReal) (ix2 p q)
      = out2 (V c main_v11) (V c main_v34) (V c main_v24) (V c main_v35) p q := by
  rw [final2 V c]; rfl

end Cert.KernelIdeal.Regions

end
-- ==== Proof.LibConcatLeft.lean ====
/-
  A TWO-PIECE CONCATENATION OF VECTORS READ IN ITS FIRST PIECE. The concatenation of `x : [a]` and `y : [b]` along
  their one axis, read at a position `i` below `a`, is `x` at `i`. (The library's two-piece lemma for any rank,
  `concatenate_pair_apply_left`, at rank 1 with the index named by its coordinate.)
-/
import Idealize.ShloMosaic.Lib.ValueIdx
import Idealize.ShloMosaic.Lib.Pipeline.Value

namespace Cert.LibConcatLeft

open Idealize.ShloMosaic Idealize.ShloMosaic.ValueIdx

/-- `concatenate [x, y]` at `i < a` is `x i`: the position falls in the first piece, at the same coordinate. -/
theorem concat2_left_apply {α : Type} {a b c : ℕ} (x : (⟨1, ![a]⟩ : Shape).Idx → α) (y : (⟨1, ![b]⟩ : Shape).Idx → α)
    (h : Shape.Concatenates (([⟨⟨1, ![a]⟩, x⟩, ⟨⟨1, ![b]⟩, y⟩] : List ((s : Shape) × (s.Idx → α))).map (·.1))
      ⟨1, ![c]⟩ 0) (i : Fin c) (hi : i.val < a) :
    concatenate ⟨1, ![c]⟩ 0 [⟨⟨1, ![a]⟩, x⟩, ⟨⟨1, ![b]⟩, y⟩] h (ix1 i) = x (ix1 ⟨i.val, hi⟩) := by
  have h' : Shape.Concatenates [(⟨1, ![a]⟩ : Shape), ⟨1, ![b]⟩] ⟨1, ![c]⟩ 0 := h
  exact concatenate_pair_apply_left (t := ⟨1, ![c]⟩) (s₁ := ⟨1, ![a]⟩) (s₂ := ⟨1, ![b]⟩) (0 : Fin 1) x y h' (ix1 i) rfl
    (ix1 ⟨i.val, hi⟩) (fun b => by
      match b with
      | ⟨0, _⟩ => rfl)

end Cert.LibConcatLeft
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.RefValue.lean ====
/-
  THE REFERENCE'S TWO GRAPH-CONVOLUTION LAYERS, READ AT AN INDEX.

  The reference program appends one loop edge per node to the two rows of edge words, counts the edges into every
  node of the longer list by scattering ones (the degree), takes the guarded inverse square root, gathers it at the
  two end rows of every edge and multiplies (the edge's weight), gathers the projected feature rows at the source
  rows, weights them, scatters them onto the target nodes, adds the bias and floors at zero; then does the same once
  more over the first layer's output. Every stage is read here at an index; the second layer's output is
  `Cert.Gcn.twoR` of the arguments.

  First come the facts that do not depend on the program: a gather of single elements of a vector at a column of
  words, the weight of an edge, and one whole layer, each over ARBITRARY arrays that are only assumed to hold the
  right values at every index. Then the program's stages are shown to hold those values.
-/
import proofs.«134846_j47244640256095_2_alg».proof.Proof.Patched.ReferenceIdeal.Read
import proofs.«134846_j47244640256095_2_alg».proof.Proof.Spec
import proofs.«134846_j47244640256095_2_alg».proof.Proof.LibRowGather
import proofs.«134846_j47244640256095_2_alg».proof.Proof.LibRowScatter
import proofs.«134846_j47244640256095_2_alg».proof.Proof.LibVecScatterAdd
import proofs.«134846_j47244640256095_2_alg».proof.Proof.LibConcatLeft
import proofs.«134846_j47244640256095_2_alg».proof.Proof.LibBroadcastInDim
import proofs.«134846_j47244640256095_2_alg».proof.Proof.LibRowBroadcast
import Idealize.ShloMosaic.Lib.ValueIdx
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-! ## Facts about arbitrary arrays -/

/-- A gather of single elements of a vector `x : [N]` at a column of words `idx : [E, 1]` (no offset axis, the one
    operand axis collapsed, start index map [0], index vector axis 1, slice size 1): element `e` of the result is `x`
    at `idx[e, 0]` read as a signed integer and clamped into `[0, N - 1]`. -/
theorem vecGather_apply {α : Type} {N E w : ℕ} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cs, ob, sb, sim, ivd, ss, wf⟩ := d
  simp only at h1 h2 h3 h4 h5 h6 h7
  subst h1 h2 h3 h4 h5 h6 h7
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (⟨[], [0], [], [], [0], 1, ![1], wf⟩ :
        GatherDims ⟨1, ![N]⟩ ⟨2, ![E, 1]⟩ ⟨1, ![E]⟩) (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The word `0x3F800000` is the real number one. -/
theorem one_word : Ideal.ofBits .f32 0x3F800000#32 = 1 := by
  simp [Ideal.ofBits, Ideal.ieee, -EReal.coe_mul]; norm_num

/-- A splat of the zero word is zero everywhere. -/
theorem zero_splat {t : Shape} (dims : Fin 0 → Fin t.rank) (h : (⟨0, ![]⟩ : Shape).BroadcastsInDim t dims) (j : t.Idx) :
    broadcastInDim t dims h (constant (F := Ideal) ⟨0, ![]⟩ .f32 0x00000000#32) j = 0 :=
  (Cert.LibBroadcastInDim.scalar_apply dims h _ j).trans Ideal.ofBits_zero_f32

/-- A vector laid as a column, read at a row, when the vector's elements are known. -/
theorem col_apply {α : Type} (h : (⟨1, ![1300000]⟩ : Shape).BroadcastsInDim ⟨2, ![1300000, 1]⟩ ![0])
    (v : (⟨1, ![1300000]⟩ : Shape).Idx → α) (f : Fin 1300000 → α) (hv : ∀ e, v (ix1 e) = f e) (e : Fin 1300000) :
    broadcastInDim ⟨2, ![1300000, 1]⟩ ![0] h v (ix2 e (0 : Fin 1)) = f e :=
  (Cert.LibBroadcastInDim.vec_col_apply h v e 0).trans (hv e)

/-- The edge words with the node numbers appended: a two-piece concatenation whose second piece counts from zero. -/
theorem cat_apply (v : IVec ⟨1, ![1200000]⟩ 32) (io : IVec ⟨1, ![100000]⟩ 32)
    (hio : ∀ i, io i = BitVec.ofNat 32 (i 0).val)
    (h : Shape.Concatenates [(⟨1, ![1200000]⟩ : Shape), ⟨1, ![100000]⟩] ⟨1, ![1300000]⟩ 0)
    (f : Fin 1200000 → BitVec 32) (hv : ∀ e, v (ix1 e) = f e) (e : Fin 1300000) :
    concatenate ⟨1, ![1300000]⟩ 0 [⟨⟨1, ![1200000]⟩, v⟩, ⟨⟨1, ![100000]⟩, io⟩] h (ix1 e) = Cert.Gcn.cat f e := by
  unfold Cert.Gcn.cat
  by_cases hlt : e.val < 1200000
  · rw [dif_pos hlt, Cert.LibConcatLeft.concat2_left_apply v io h e hlt, hv]
  · have hlt' : e.val - 1200000 < 100000 := by have := e.isLt; omega
    rw [dif_neg hlt, concatenate_pair_apply_right (t := ⟨1, ![1300000]⟩) (s₁ := ⟨1, ![1200000]⟩) (s₂ := ⟨1, ![100000]⟩)
      (0 : Fin 1) v io h (ix1 e) rfl rfl (ix1 ⟨e.val - 1200000, hlt'⟩) (fun b hb => absurd (Subsingleton.elim _ _) hb)
      (by show (e.val - 1200000) + 1200000 = e.val; omega), hio]

/-- A word moved up by the number of nodes when negative: the select of the compare against zero and the sum. -/
theorem wrap_apply (v zc nc : IVec ⟨1, ![1300000]⟩ 32) (f : Fin 1300000 → BitVec 32) (hv : ∀ e, v (ix1 e) = f e)
    (hz : ∀ i, zc i = 0#32) (hn : ∀ i, nc i = 100000#32) (e : Fin 1300000) :
    select (cmpi .slt v zc) (addi v nc) v (ix1 e) = Cert.Gcn.wrap (f e) := by
  show Scalar.select (IntOp.cmpi .slt (v (ix1 e)) (zc (ix1 e))) (IntOp.addi (v (ix1 e)) (nc (ix1 e))) (v (ix1 e)) = _
  rw [hv, hz, hn]
  rfl

/-- The column of wrapped words. -/
theorem wrapcol_apply (h : (⟨1, ![1300000]⟩ : Shape).BroadcastsInDim ⟨2, ![1300000, 1]⟩ ![0])
    (v zc nc : IVec ⟨1, ![1300000]⟩ 32) (f : Fin 1300000 → BitVec 32) (hv : ∀ e, v (ix1 e) = f e)
    (hz : ∀ i, zc i = 0#32) (hn : ∀ i, nc i = 100000#32) (e : Fin 1300000) :
    broadcastInDim ⟨2, ![1300000, 1]⟩ ![0] h (select (cmpi .slt v zc) (addi v nc) v) (ix2 e (0 : Fin 1))
      = Cert.Gcn.wrap (f e) :=
  col_apply h _ (fun e => Cert.Gcn.wrap (f e)) (wrap_apply v zc nc f hv hz hn) e

/-- A clamped row index read off a column holding the wrapped words is the row the word names. -/
theorem row_of_col (col : IVec ⟨2, ![1300000, 1]⟩ 32) (s : Fin 1300000 → BitVec 32)
    (hs : ∀ e : Fin 1300000, col (ix2 e (0 : Fin 1)) = Cert.Gcn.wrap (s e)) (e : Fin 1300000)
    (h : min (col (ix2 e (0 : Fin 1))).toInt.toNat (100000 - 1) < 100000) :
    (⟨min (col (ix2 e (0 : Fin 1))).toInt.toNat (100000 - 1), h⟩ : Fin 100000) = Cert.Gcn.row (s e) :=
  Fin.ext (by
    show min (col (ix2 e (0 : Fin 1))).toInt.toNat (100000 - 1) = min (Cert.Gcn.wrap (s e)).toInt.toNat (100000 - 1)
    rw [hs])

/-- The weight of an edge: the normaliser gathered at the edge's two end rows, multiplied. -/
theorem norm_apply (gd : GatherDims ⟨1, ![100000]⟩ ⟨2, ![1300000, 1]⟩ ⟨1, ![1300000]⟩)
    (g1 : gd.offsetDims = []) (g2 : gd.collapsedSliceDims = [0]) (g3 : gd.operandBatchingDims = [])
    (g4 : gd.startIndicesBatchingDims = []) (g5 : gd.startIndexMap = [0]) (g6 : gd.indexVectorDim = 1)
    (g7 : gd.sliceSizes = ![1])
    (s d : Fin 1300000 → BitVec 32) (D : Fin 100000 → EReal)
    (dv : FVec Ideal ⟨1, ![100000]⟩ .f32) (scol dcol : IVec ⟨2, ![1300000, 1]⟩ 32)
    (hdv : ∀ n : Fin 100000, dv (ix1 n) = D n)
    (hs : ∀ e : Fin 1300000, scol (ix2 e (0 : Fin 1)) = Cert.Gcn.wrap (s e))
    (hd : ∀ e : Fin 1300000, dcol (ix2 e (0 : Fin 1)) = Cert.Gcn.wrap (d e)) (e : Fin 1300000) :
    mulf (Host.gather gd dv scol) (Host.gather gd dv dcol) (ix1 e)
      = D (Cert.Gcn.row (s e)) * D (Cert.Gcn.row (d e)) := by
  rw [mulf_apply, vecGather_apply (by norm_num) gd g1 g2 g3 g4 g5 g6 g7,
    vecGather_apply (by norm_num) gd g1 g2 g3 g4 g5 g6 g7, row_of_col scol s hs e, row_of_col dcol d hd e, hdv, hdv]

/-- One whole layer: the rows of `hm` gathered at the source rows, weighted, scattered onto the target nodes of a zero
    matrix, the bias added, the floor at zero. -/
theorem layer_apply
    (gd : GatherDims ⟨2, ![100000, 64]⟩ ⟨2, ![1300000, 1]⟩ ⟨2, ![1300000, 64]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, 64])
    (sd : ScatterDims ⟨2, ![100000, 64]⟩ ⟨2, ![1300000, 1]⟩ ⟨2, ![1300000, 64]⟩)
    (s1 : sd.updateWindowDims = [1]) (s2 : sd.insertedWindowDims = [0]) (s3 : sd.scatterDimsToOperandDims = [0])
    (s4 : sd.indexVectorDim = 1)
    (s d : Fin 1300000 → BitVec 32) (b : Fin 64 → EReal)
    (z z' hm bb : FVec Ideal ⟨2, ![100000, 64]⟩ .f32) (dcol scol : IVec ⟨2, ![1300000, 1]⟩ 32)
    (nrm : FVec Ideal ⟨2, ![1300000, 64]⟩ .f32)
    (hz : ∀ i, z i = 0) (hz' : ∀ i, z' i = 0)
    (hd : ∀ e : Fin 1300000, dcol (ix2 e (0 : Fin 1)) = d e)
    (hs : ∀ e : Fin 1300000, scol (ix2 e (0 : Fin 1)) = Cert.Gcn.wrap (s e))
    (hn : ∀ (e : Fin 1300000) (q : Fin 64), nrm (ix2 e q) = Cert.Gcn.norm s d e)
    (hb : ∀ (n : Fin 100000) (q : Fin 64), bb (ix2 n q) = b q) (n : Fin 100000) (q : Fin 64) :
    maximumf (addf (Host.scatterAdd (F := Ideal) (φ := .f32) sd z dcol (mulf (Host.gather gd hm scol) nrm)) bb) z' (ix2 n q)
      = Cert.Gcn.layerR s d (fun p k => hm (ix2 p k)) b n q := by
  rw [maximumf_apply, addf_apply, Cert.LibRowScatter.rowScatterAdd_apply sd s1 s2 s3 s4, hz, hz', hb, zero_add]
  unfold Cert.Gcn.layerR
  refine congrArg (fun t => max (t + b q) 0) ?_
  refine Finset.sum_congr rfl fun e _ => ?_
  rw [hd, mulf_apply, Cert.LibRowGather.rowGather_apply (by norm_num) gd g1 g2 g3 g4 g5 g6 g7, row_of_col scol s hs e, hn]

/-! ## The program's stages -/

/-- The edge array's type. -/
abbrev Edges : Type := (⟨S2x1200000, .i32⟩ : BufTy).Contents (Elt Ideal)

/-- The first row of the edge array as a vector: the source words. -/
theorem v1_apply (x1 : Edges) (e : Fin 1200000) : val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- The second row of the edge array as a vector: the target words. -/
theorem v3_apply (x1 : Edges) (e : Fin 1200000) : val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- The source words with the loop edges appended. -/
theorem v5_apply (x1 : Edges) (e : Fin 1300000) :
    val_main_v5 (F := Ideal) x1 (ix1 e) = Cert.Gcn.cat (fun e => x1 (ix2 (0 : Fin 2) e)) e := by
  unfold val_main_v5
  exact cat_apply _ _ (fun _ => rfl) _ _ (v1_apply x1) e

/-- The target words with the loop edges appended. -/
theorem v6_apply (x1 : Edges) (e : Fin 1300000) :
    val_main_v6 (F := Ideal) x1 (ix1 e) = Cert.Gcn.cat (fun e => x1 (ix2 (1 : Fin 2) e)) e := by
  unfold val_main_v6
  exact cat_apply _ _ (fun _ => rfl) _ _ (v3_apply x1) e

/-- The degree: ones scattered onto the target nodes of the longer list. -/
theorem v10_apply (x1 : Edges) (n : Fin 100000) :
    val_main_v10 (F := Ideal) x1 (ix1 n) = Cert.Gcn.degR (Cert.Gcn.cat (fun e => x1 (ix2 (1 : Fin 2) e))) n := by
  have h9 : ∀ e : Fin 1300000, val_main_v9 (F := Ideal) x1 (ix2 e (0 : Fin 1))
      = Cert.Gcn.cat (fun e => x1 (ix2 (1 : Fin 2) e)) e := fun e => by
    unfold val_main_v9
    exact col_apply _ _ _ (v6_apply x1) e
  have h7 : ∀ e : Fin 1300000, val_main_v7 (F := Ideal) (ix1 e) = 1 := fun e => by
    rw [val_main_v7_apply]
    exact one_word
  have h8 : val_main_v8 (F := Ideal) (ix1 n) = 0 := zero_splat _ _ _
  unfold val_main_v10 Cert.Gcn.degR
  rw [Cert.LibVecScatterAdd.vecScatterAdd_apply scatter_S100000_S1300000x1_S1300000_n_0_0_1 rfl rfl rfl, h8, zero_add]
  refine Finset.sum_congr rfl fun e _ => ?_
  rw [h9, h7]

/-- The normaliser: the inverse square root of the degree where the degree is positive, else zero. -/
theorem v14_apply (x1 : Edges) (n : Fin 100000) :
    val_main_v14 (F := Ideal) x1 (ix1 n) = Cert.Gcn.dinvR (Cert.Gcn.cat (fun e => x1 (ix2 (1 : Fin 2) e))) n := by
  have h11 : val_main_v11 (F := Ideal) (ix1 n) = 0 := zero_splat _ _ _
  have hw : val_main_call0_v1 (F := Ideal) (ix1 n) = 0 := zero_splat _ _ _
  have hc : ∀ a b : EReal, FloatOps.cmpf (F := Ideal) (φ := .f32) .ogt a b = Ideal.cmp .ogt a b := fun _ _ => rfl
  rw [val_main_v14_apply, val_main_v12_apply, val_main_v13_apply, v10_apply, h11, hw, hc, Ideal.hostUnary_rsqrt_def]
  unfold Cert.Gcn.dinvR
  rfl

/-- The column of wrapped source words the normaliser is gathered at. -/
theorem v20_apply (x1 : Edges) (e : Fin 1300000) : val_main_v20 (F := Ideal) x1 (ix2 e (0 : Fin 1))
    = Cert.Gcn.wrap (Cert.Gcn.cat (fun e => x1 (ix2 (0 : Fin 2) e)) e) := by
  unfold val_main_v20 val_main_v19 val_main_v16 val_main_v18
  exact wrapcol_apply _ _ _ _ _ (v5_apply x1) (fun i => by rw [val_main_v15_apply]; rfl) (fun i => by rw [val_main_v17_apply]; rfl) e

/-- The column of wrapped target words the normaliser is gathered at. -/
theorem v27_apply (x1 : Edges) (e : Fin 1300000) : val_main_v27 (F := Ideal) x1 (ix2 e (0 : Fin 1))
    = Cert.Gcn.wrap (Cert.Gcn.cat (fun e => x1 (ix2 (1 : Fin 2) e)) e) := by
  unfold val_main_v27 val_main_v26 val_main_v23 val_main_v25
  exact wrapcol_apply _ _ _ _ _ (v6_apply x1) (fun i => by rw [val_main_v22_apply]; rfl) (fun i => by rw [val_main_v24_apply]; rfl) e

/-- The weight of every edge of the longer list. -/
theorem v29_apply (x1 : Edges) (e : Fin 1300000) : val_main_v29 (F := Ideal) x1 (ix1 e)
    = Cert.Gcn.norm (Cert.Gcn.cat (fun e => x1 (ix2 (0 : Fin 2) e))) (Cert.Gcn.cat (fun e => x1 (ix2 (1 : Fin 2) e))) e := by
  unfold val_main_v29 val_main_v21 val_main_v28
  exact norm_apply gather_S100000_S1300000x1_S1300000_n_0_n_n_0_1_1 rfl rfl rfl rfl rfl rfl rfl
    (Cert.Gcn.cat (fun e => x1 (ix2 (0 : Fin 2) e))) (Cert.Gcn.cat (fun e => x1 (ix2 (1 : Fin 2) e)))
    (Cert.Gcn.dinvR (Cert.Gcn.cat (fun e => x1 (ix2 (1 : Fin 2) e)))) _ _ _ (v14_apply x1) (v20_apply x1) (v27_apply x1) e

/-- The weights spread over the 64 feature columns. -/
theorem v39_apply (x1 : Edges) (e : Fin 1300000) (q : Fin 64) : val_main_v39 (F := Ideal) x1 (ix2 e q)
    = Cert.Gcn.norm (Cert.Gcn.cat (fun e => x1 (ix2 (0 : Fin 2) e))) (Cert.Gcn.cat (fun e => x1 (ix2 (1 : Fin 2) e))) e := by
  unfold val_main_v39 val_main_v38
  rw [Cert.LibBroadcastInDim.col_mat_apply, Cert.LibBroadcastInDim.vec_col_apply]
  exact v29_apply x1 e

/-- The column of wrapped source words the feature rows are gathered at. -/
theorem v36_apply (x1 : Edges) (e : Fin 1300000) : val_main_v36 (F := Ideal) x1 (ix2 e (0 : Fin 1))
    = Cert.Gcn.wrap (Cert.Gcn.cat (fun e => x1 (ix2 (0 : Fin 2) e)) e) := by
  unfold val_main_v36 val_main_v35 val_main_v32 val_main_v34
  exact wrapcol_apply _ _ _ _ _ (v5_apply x1) (fun i => by rw [val_main_v31_apply]; rfl) (fun i => by rw [val_main_v33_apply]; rfl) e

/-- The column of target words the weighted rows are scattered at. -/
theorem v42_apply (x1 : Edges) (e : Fin 1300000) : val_main_v42 (F := Ideal) x1 (ix2 e (0 : Fin 1))
    = Cert.Gcn.cat (fun e => x1 (ix2 (1 : Fin 2) e)) e := by
  unfold val_main_v42
  exact col_apply _ _ _ (v6_apply x1) e

/-- The bias spread over the rows. -/
theorem v45_apply (x4 : (⟨S64, .f32⟩ : BufTy).Contents (Elt Ideal)) (n : Fin 100000) (q : Fin 64) :
    val_main_v45 (F := Ideal) x4 (ix2 n q) = x4 (ix1 q) := by
  unfold val_main_v45 val_main_v44
  rw [Cert.LibRowBroadcast.row_mat_apply, Cert.LibRowBroadcast.vec_row_apply]

/-- The first projection: the features times the first weight matrix. -/
theorem v30_apply (x0 : (⟨S100000x5, .f32⟩ : BufTy).Contents (Elt Ideal)) (x3 : (⟨S5x64, .f32⟩ : BufTy).Contents (Elt Ideal))
    (p : Fin 100000) (k : Fin 64) :
    val_main_v30 (F := Ideal) x0 x3 (ix2 p k) = Cert.Gcn.lin (fun p k => x0 (ix2 p k)) (fun k q => x3 (ix2 k q)) p k := by
  rw [val_main_v30_apply]
  unfold Cert.Gcn.lin
  refine Finset.sum_congr rfl fun j _ => ?_
  have el : lidx_main_v30 (ix2 p k) j = ix2 p j := funext fun a => Fin.ext (by
    match a with
    | ⟨0, _⟩ => rfl
    | ⟨1, _⟩ => rfl)
  have er : ridx_main_v30 (ix2 p k) j = ix2 j k := funext fun a => Fin.ext (by
    match a with
    | ⟨0, _⟩ => rfl
    | ⟨1, _⟩ => rfl)
  rw [el, er]

/-- The first layer's output. -/
theorem v47_apply (x0 : (⟨S100000x5, .f32⟩ : BufTy).Contents (Elt Ideal)) (x1 : Edges)
    (x3 : (⟨S5x64, .f32⟩ : BufTy).Contents (Elt Ideal)) (x4 : (⟨S64, .f32⟩ : BufTy).Contents (Elt Ideal))
    (n : Fin 100000) (q : Fin 64) :
    val_main_v47 (F := Ideal) x0 x1 x3 x4 (ix2 n q)
      = Cert.Gcn.layerR (Cert.Gcn.cat (fun e => x1 (ix2 (0 : Fin 2) e))) (Cert.Gcn.cat (fun e => x1 (ix2 (1 : Fin 2) e)))
          (fun p k => val_main_v30 (F := Ideal) x0 x3 (ix2 p k)) (fun q => x4 (ix1 q)) n q := by
  unfold val_main_v47 val_main_v46 val_main_v43 val_main_v40 val_main_v37
  exact layer_apply gather_S100000x64_S1300000x1_S1300000x64_1_0_n_n_0_1_164 rfl rfl rfl rfl rfl rfl rfl
    scatter_S100000x64_S1300000x1_S1300000x64_1_0_0_1 rfl rfl rfl rfl
    (Cert.Gcn.cat (fun e => x1 (ix2 (0 : Fin 2) e))) (Cert.Gcn.cat (fun e => x1 (ix2 (1 : Fin 2) e))) (fun q => x4 (ix1 q))
    _ _ _ _ _ _ _ (fun i => zero_splat _ _ i) (fun i => zero_splat _ _ i) (v42_apply x1) (v36_apply x1) (v39_apply x1)
    (v45_apply x4) n q

/-! ## The second layer: the same stages over the first layer's output -/

/-- The second layer's column of wrapped source words. -/
theorem v80_apply (x1 : Edges) (e : Fin 1300000) : val_main_v80 (F := Ideal) x1 (ix2 e (0 : Fin 1))
    = Cert.Gcn.wrap (Cert.Gcn.cat (fun e => x1 (ix2 (0 : Fin 2) e)) e) := v36_apply x1 e

/-- The second layer's column of target words. -/
theorem v86_apply (x1 : Edges) (e : Fin 1300000) : val_main_v86 (F := Ideal) x1 (ix2 e (0 : Fin 1))
    = Cert.Gcn.cat (fun e => x1 (ix2 (1 : Fin 2) e)) e := v42_apply x1 e

/-- The second layer's weights: the same stages over the same edge words. -/
theorem v83_apply (x1 : Edges) (e : Fin 1300000) (q : Fin 64) : val_main_v83 (F := Ideal) x1 (ix2 e q)
    = Cert.Gcn.norm (Cert.Gcn.cat (fun e => x1 (ix2 (0 : Fin 2) e))) (Cert.Gcn.cat (fun e => x1 (ix2 (1 : Fin 2) e))) e :=
  v39_apply x1 e q

/-- The second projection: the first layer's output times the second weight matrix. -/
theorem v74_apply (x0 : (⟨S100000x5, .f32⟩ : BufTy).Contents (Elt Ideal)) (x1 : Edges)
    (x3 : (⟨S5x64, .f32⟩ : BufTy).Contents (Elt Ideal)) (x4 : (⟨S64, .f32⟩ : BufTy).Contents (Elt Ideal))
    (x5 : (⟨S64x64, .f32⟩ : BufTy).Contents (Elt Ideal)) (p : Fin 100000) (k : Fin 64) :
    val_main_v74 (F := Ideal) x0 x1 x3 x4 x5 (ix2 p k)
      = Cert.Gcn.lin (fun p k => val_main_v47 (F := Ideal) x0 x1 x3 x4 (ix2 p k)) (fun k q => x5 (ix2 k q)) p k := by
  rw [val_main_v74_apply]
  unfold Cert.Gcn.lin
  refine Finset.sum_congr rfl fun j _ => ?_
  have el : lidx_main_v74 (ix2 p k) j = ix2 p j := funext fun a => Fin.ext (by
    match a with
    | ⟨0, _⟩ => rfl
    | ⟨1, _⟩ => rfl)
  have er : ridx_main_v74 (ix2 p k) j = ix2 j k := funext fun a => Fin.ext (by
    match a with
    | ⟨0, _⟩ => rfl
    | ⟨1, _⟩ => rfl)
  rw [el, er]

/-- The second layer's output over the second projection. -/
theorem v91_layer (x0 : (⟨S100000x5, .f32⟩ : BufTy).Contents (Elt Ideal)) (x1 : Edges)
    (x3 : (⟨S5x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (n : Fin 100000) (q : Fin 64) :
    val_main_v91 (F := Ideal) x0 x1 x3 x4 x5 x6 (ix2 n q)
      = Cert.Gcn.layerR (Cert.Gcn.cat (fun e => x1 (ix2 (0 : Fin 2) e))) (Cert.Gcn.cat (fun e => x1 (ix2 (1 : Fin 2) e)))
          (fun p k => val_main_v74 (F := Ideal) x0 x1 x3 x4 x5 (ix2 p k)) (fun q => x6 (ix1 q)) n q := by
  unfold val_main_v91 val_main_v90 val_main_v87 val_main_v84 val_main_v81
  exact layer_apply gather_S100000x64_S1300000x1_S1300000x64_1_0_n_n_0_1_164 rfl rfl rfl rfl rfl rfl rfl
    scatter_S100000x64_S1300000x1_S1300000x64_1_0_0_1 rfl rfl rfl rfl
    (Cert.Gcn.cat (fun e => x1 (ix2 (0 : Fin 2) e))) (Cert.Gcn.cat (fun e => x1 (ix2 (1 : Fin 2) e))) (fun q => x6 (ix1 q))
    _ _ _ _ _ _ _ (fun i => zero_splat _ _ i) (fun i => zero_splat _ _ i) (v86_apply x1) (v80_apply x1) (v83_apply x1)
    (v45_apply x6) n q

/-- THE REFERENCE'S SECOND LAYER AT AN INDEX: the two weighted layers over the edge list with the loop edges appended. -/
theorem val_main_v91_apply
    (x0 : (⟨S100000x5, .f32⟩ : BufTy).Contents (Elt Ideal)) (x1 : (⟨S2x1200000, .i32⟩ : BufTy).Contents (Elt Ideal))
    (x3 : (⟨S5x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (p : Fin 100000) (q : Fin 64) :
    Cert.ReferenceIdeal.Read.val_main_v91 (F := Ideal) x0 x1 x3 x4 x5 x6 (ix2 p q)
      = Cert.Gcn.twoR (fun e => x1 (ix2 (0 : Fin 2) e)) (fun e => x1 (ix2 (1 : Fin 2) e))
          (fun p k => x0 (ix2 p k)) (fun k q => x3 (ix2 k q)) (fun q => x4 (ix1 q))
          (fun k q => x5 (ix2 k q)) (fun q => x6 (ix1 q)) p q := by
  have h30 : (fun (p : Fin 100000) (k : Fin 64) => val_main_v30 (F := Ideal) x0 x3 (ix2 p k))
      = Cert.Gcn.lin (fun p k => x0 (ix2 p k)) (fun k q => x3 (ix2 k q)) :=
    funext fun p => funext fun k => v30_apply x0 x3 p k
  have h47 : (fun (p : Fin 100000) (k : Fin 64) => val_main_v47 (F := Ideal) x0 x1 x3 x4 (ix2 p k))
      = Cert.Gcn.layerR (Cert.Gcn.cat (fun e => x1 (ix2 (0 : Fin 2) e))) (Cert.Gcn.cat (fun e => x1 (ix2 (1 : Fin 2) e)))
          (Cert.Gcn.lin (fun p k => x0 (ix2 p k)) (fun k q => x3 (ix2 k q))) (fun q => x4 (ix1 q)) :=
    funext fun p => funext fun k => by rw [v47_apply, h30]
  have h74 : (fun (p : Fin 100000) (k : Fin 64) => val_main_v74 (F := Ideal) x0 x1 x3 x4 x5 (ix2 p k))
      = Cert.Gcn.lin (Cert.Gcn.layerR (Cert.Gcn.cat (fun e => x1 (ix2 (0 : Fin 2) e)))
          (Cert.Gcn.cat (fun e => x1 (ix2 (1 : Fin 2) e)))
          (Cert.Gcn.lin (fun p k => x0 (ix2 p k)) (fun k q => x3 (ix2 k q))) (fun q => x4 (ix1 q))) (fun k q => x5 (ix2 k q)) :=
    funext fun p => funext fun k => by rw [v74_apply, h47]
  rw [v91_layer, h74]
  rfl

end Cert.RefValue

end
-- ==== Proof.LibClipBins.lean ====
/-
  Facts about 32-bit two's-complement words as the program's integer operations compute them.

  (1) A signed maximum with 0 followed by a signed minimum with 63 lands in the interval [0, 63].
  (2) The negative-index wrap "if z < 0 then z + k else z" is the identity on a non-negative word.
  (3) A natural number below 2^31, written as a 32-bit word, reads back signed as itself.
  (4) For words y, x in [0, 63], the row-major bin number 64 * y + x of a 64 x 64 plane is computed without
      wrap-around, so it equals the word of q < 4096 exactly when y = q / 64 and x = q % 64.
  (5) The one-hot entry: the equality bit of two words, zero-extended to 32 bits and converted to an extended real,
      is 1 when the words are equal and 0 otherwise.
-/
import Idealize.ShloMosaic.Lib.ValueIdx
import Idealize.ShloMosaic.PureOps.Ideal

namespace Cert.LibClipBins

open Idealize.ShloMosaic

/-- Signed "less than" on words is "less than" on their signed readings. -/
theorem slt_iff (x y : BitVec 32) : x.slt y = true ↔ x.toInt < y.toInt := by
  simp [BitVec.slt]

theorem toInt_zero32 : (0#32 : BitVec 32).toInt = 0 := by decide
theorem toInt_63 : (63#32 : BitVec 32).toInt = 63 := by decide

/-- Clipping to [0, 63]: signed maximum with 0, then signed minimum with 63. -/
theorem clip_range (y : BitVec 32) :
    0 ≤ (IntOp.minsi 63#32 (IntOp.maxsi 0#32 y)).toInt ∧ (IntOp.minsi 63#32 (IntOp.maxsi 0#32 y)).toInt ≤ 63 := by
  unfold IntOp.minsi IntOp.maxsi
  by_cases h1 : y.slt 0#32 = true
  · rw [if_pos h1]
    have h2 : ¬ ((63#32 : BitVec 32).slt 0#32 = true) := by decide
    rw [if_neg h2, toInt_zero32]; omega
  · rw [if_neg h1]
    rw [slt_iff, toInt_zero32] at h1
    by_cases h2 : (63#32 : BitVec 32).slt y = true
    · rw [if_pos h2, toInt_63]; omega
    · rw [if_neg h2]
      rw [slt_iff, toInt_63] at h2
      omega

/-- The negative-index wrap is the identity on a non-negative word. -/
theorem wrap_of_nonneg (z k : BitVec 32) (hz : 0 ≤ z.toInt) :
    Scalar.select (IntOp.cmpi .slt z 0#32) (IntOp.addi z k) z = z := by
  have h : z.slt 0#32 = false := by
    rw [Bool.eq_false_iff]; intro h
    rw [slt_iff, toInt_zero32] at h; omega
  simp [Scalar.select, IntOp.cmpi, h]

/-- A natural number below 2^31, as a 32-bit word, reads back signed as itself. -/
theorem ofNat_toInt (n : ℕ) (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1]
  split_ifs with h2
  · rfl
  · omega

/-- A word whose signed reading lies in [0, 63] has that unsigned reading too. -/
theorem toNat_of_range (y : BitVec 32) (hy : 0 ≤ y.toInt ∧ y.toInt ≤ 63) : (y.toNat : ℤ) = y.toInt := by
  have h := BitVec.toInt_eq_toNat_cond y
  have hlt := y.isLt
  split_ifs at h with h2
  · omega
  · omega

/-- The row-major bin number of a 64 x 64 plane, computed in 32-bit words. -/
theorem bin_eq_iff (y x : BitVec 32) (hy : 0 ≤ y.toInt ∧ y.toInt ≤ 63) (hx : 0 ≤ x.toInt ∧ x.toInt ≤ 63)
    (q : ℕ) (hq : q < 4096) :
    IntOp.addi (IntOp.muli y 64#32) x = BitVec.ofNat 32 q ↔
      y.toInt = ((q / 64 : ℕ) : ℤ) ∧ x.toInt = ((q % 64 : ℕ) : ℤ) := by
  have hyn := toNat_of_range y hy
  have hxn := toNat_of_range x hx
  unfold IntOp.addi IntOp.muli
  rw [← BitVec.toNat_inj, BitVec.toNat_add, BitVec.toNat_mul]
  simp only [BitVec.toNat_ofNat]
  have hy' : y.toNat ≤ 63 := by omega
  have hx' : x.toNat ≤ 63 := by omega
  have e0 : 64 % 2 ^ 32 = 64 := by norm_num
  have e1 : y.toNat * 64 % 2 ^ 32 = y.toNat * 64 := Nat.mod_eq_of_lt (by omega)
  have e2 : (y.toNat * 64 + x.toNat) % 2 ^ 32 = y.toNat * 64 + x.toNat := Nat.mod_eq_of_lt (by omega)
  have e3 : q % 2 ^ 32 = q := Nat.mod_eq_of_lt (by omega)
  rw [e0, e1, e2, e3]
  omega

/-- The one-hot entry at one element: the equality bit, widened and converted, is the indicator of equality. -/
theorem onehot_entry (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h
    simp
  · have hb : (a == b) = false := by simpa using h
    simp [h, hb]

/-- The one-hot entry of a vector-level comparison read at an index. -/
theorem onehot_apply {s : Shape} (a b : IVec s 32) (hw : 1 < 32) (i : s.Idx) :
    sitofp (F := Ideal) .f32 (extui 32 (cmpi .eq a b) hw) i = if a i = b i then (1 : EReal) else 0 :=
  onehot_entry (a i) (b i)

end Cert.LibClipBins
-- ==== Proof.Core.lean ====
/-
  The two arrangements of a graph-convolution layer (Spec.lean) are the same function on the extended reals, for
  every graph, every feature matrix and every bias — infinite features included.

  The one law used that the extended reals do not have in general is distributivity, `c · (x + y) = c · x + c · y`;
  it holds when `c` is a nonnegative real, and the only factor ever moved across a sum here is a node's normaliser
  `dinv n = (deg n + 1)^(-1/2)`, where `deg n` is a count: a natural number, so `deg n + 1` is a positive real and
  its inverse square root a nonnegative real. Everything else is commutativity and associativity of `+` and `·`.

  The steps: a sum over the edge list with the 100000 loop edges appended is the sum over the edges plus the sum
  over the loops (`sum_cat`), and exactly one loop enters a given node (`loop_sum`); so the recounted degree is
  `deg n + 1`, positive, and the guarded normaliser is the unguarded one (`dinvR_cat`); an edge into `n` reads row
  `n` at its target (`row_of_toInt`), so its weight is `dinv[src] · dinv n`; pulling `dinv n` out of the sum gives the
  other arrangement (`layer_eq`).
-/
import proofs.«134846_j47244640256095_2_alg».proof.Proof.Spec
import proofs.«134846_j47244640256095_2_alg».proof.Proof.LibClipBins
import Mathlib.Algebra.BigOperators.Fin

noncomputable section

open scoped BigOperators

namespace Cert.Gcn

open Idealize.ShloMosaic

/-! ## Words as rows -/

/-- A word that, read signed, is the number of node `n` reads row `n`: it is not negative, so it is not moved, and
    it is below the number of nodes, so it is not clamped. -/
theorem row_of_toInt {z : BitVec 32} {n : Fin 100000} (h : z.toInt = (n.val : ℤ)) : row z = n := by
  have hz : 0 ≤ z.toInt := by rw [h]; exact Int.natCast_nonneg _
  apply Fin.ext
  show min (wrap z).toInt.toNat (100000 - 1) = n.val
  unfold wrap
  rw [Cert.LibClipBins.wrap_of_nonneg z _ hz, h, Int.toNat_natCast]
  have := n.isLt
  omega

/-- The word of a node's number reads back signed as that number. -/
theorem toInt_ofNat_node (j : Fin 100000) : (BitVec.ofNat 32 j.val).toInt = (j.val : ℤ) :=
  Cert.LibClipBins.ofNat_toInt _ (by have := j.isLt; omega)

/-- The word of a node's number reads that node's row. -/
theorem row_ofNat_node (j : Fin 100000) : row (BitVec.ofNat 32 j.val) = j := row_of_toInt (toInt_ofNat_node j)

/-! ## Sums over the list with the loops appended -/

/-- A sum over the edges with one loop per node appended is the sum over the edges plus the sum over the loops. -/
theorem sum_cat (src dst : Fin 1200000 → BitVec 32) (g : BitVec 32 → BitVec 32 → EReal) :
    ∑ e : Fin 1300000, g (cat src e) (cat dst e)
      = (∑ e : Fin 1200000, g (src e) (dst e)) + ∑ j : Fin 100000, g (BitVec.ofNat 32 j.val) (BitVec.ofNat 32 j.val) := by
  have h := Fin.sum_univ_add (a := 1200000) (b := 100000) (fun e : Fin (1200000 + 100000) => g (cat src e) (cat dst e))
  refine h.trans ?_
  refine congrArg₂ (· + ·) ?_ ?_
  · refine Finset.sum_congr rfl fun e _ => ?_
    have he : (Fin.castAdd 100000 e).val < 1200000 := e.isLt
    show g (cat src (Fin.castAdd 100000 e)) (cat dst (Fin.castAdd 100000 e)) = _
    unfold cat
    rw [dif_pos he, dif_pos he]
    rfl
  · refine Finset.sum_congr rfl fun j _ => ?_
    have hj : ¬ (Fin.natAdd 1200000 j).val < 1200000 := by
      show ¬ 1200000 + j.val < 1200000
      omega
    have hv : (Fin.natAdd 1200000 j).val - 1200000 = j.val := by
      show 1200000 + j.val - 1200000 = j.val
      omega
    show g (cat src (Fin.natAdd 1200000 j)) (cat dst (Fin.natAdd 1200000 j)) = _
    unfold cat
    rw [dif_neg hj, dif_neg hj, hv]

/-- Exactly one loop enters node `n`: its own. -/
theorem loop_sum (n : Fin 100000) (f : Fin 100000 → EReal) :
    (∑ j : Fin 100000, if (BitVec.ofNat 32 j.val).toInt = (n.val : ℤ) then f j else 0) = f n := by
  have h : ∀ j : Fin 100000, ((BitVec.ofNat 32 j.val).toInt = (n.val : ℤ)) ↔ j = n := fun j => by
    rw [toInt_ofNat_node]
    constructor
    · intro e; exact Fin.ext (by exact_mod_cast e)
    · rintro rfl; rfl
  simp only [h]
  rw [Finset.sum_ite_eq' Finset.univ n f]
  simp

/-! ## The normaliser is a nonnegative real -/

/-- A count is a natural number. -/
theorem count_real {ι : Type} (s : Finset ι) (p : ι → Prop) [DecidablePred p] :
    ∃ k : ℕ, (∑ i ∈ s, if p i then (1 : EReal) else 0) = ((k : ℝ) : EReal) := by
  classical
  induction s using Finset.induction_on with
  | empty => exact ⟨0, by simp⟩
  | insert a s ha ih =>
    obtain ⟨k, hk⟩ := ih
    rw [Finset.sum_insert ha, hk]
    by_cases h : p a
    · refine ⟨k + 1, ?_⟩
      rw [if_pos h, ← EReal.coe_one, ← EReal.coe_add]
      congr 1
      push_cast
      ring
    · exact ⟨k, by rw [if_neg h, zero_add]⟩

/-- The inverse square root of a positive real is a nonnegative real. -/
theorem rsqrt_pos_real {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- `deg n + 1` is a real number, at least one. -/
theorem deg_succ_real (dst : Fin 1200000 → BitVec 32) (n : Fin 100000) :
    ∃ r : ℝ, 0 < r ∧ deg dst n + 1 = (r : EReal) := by
  obtain ⟨k, hk⟩ := count_real Finset.univ (fun e : Fin 1200000 => (dst e).toInt = (n.val : ℤ))
  refine ⟨(k : ℝ) + 1, by positivity, ?_⟩
  unfold deg
  rw [hk, ← EReal.coe_one, ← EReal.coe_add]

/-- The normaliser is a nonnegative real. -/
theorem dinv_real (dst : Fin 1200000 → BitVec 32) (n : Fin 100000) :
    ∃ c : ℝ, 0 ≤ c ∧ dinv dst n = (c : EReal) := by
  obtain ⟨r, hr, h⟩ := deg_succ_real dst n
  refine ⟨(Real.sqrt r)⁻¹, inv_nonneg.mpr (Real.sqrt_nonneg r), ?_⟩
  unfold dinv
  rw [h, rsqrt_pos_real hr]

/-- Over the list with the loops appended every node has one more incoming edge: its loop. -/
theorem degR_cat (dst : Fin 1200000 → BitVec 32) (n : Fin 100000) : degR (cat dst) n = deg dst n + 1 := by
  have h := sum_cat dst dst (fun _ d => if d.toInt = (n.val : ℤ) then (1 : EReal) else 0)
  beta_reduce at h
  unfold degR deg
  refine h.trans ?_
  rw [loop_sum n (fun _ => (1 : EReal))]

/-- The recounted degree is positive, so the guard never fires: the guarded normaliser over the longer list is the
    plain one. -/
theorem dinvR_cat (dst : Fin 1200000 → BitVec 32) (n : Fin 100000) : dinvR (cat dst) n = dinv dst n := by
  obtain ⟨r, hr, h⟩ := deg_succ_real dst n
  unfold dinvR dinv
  rw [degR_cat, h]
  have hpos : (0 : EReal) < (r : EReal) := by exact_mod_cast hr
  have hc : Ideal.cmp .ogt (r : EReal) 0 = 1#1 := by
    show BitVec.ofBool (decide ((0 : EReal) < (r : EReal))) = 1#1
    rw [decide_eq_true hpos]
    rfl
  rw [hc]
  rfl

/-! ## A nonnegative real factor moves across a finite sum -/

/-- `c · Σ f = Σ c · f` on the extended reals for a nonnegative real `c`. -/
theorem mul_sum_of_nonneg {ι : Type} (s : Finset ι) {c : ℝ} (hc : 0 ≤ c) (f : ι → EReal) :
    (c : EReal) * ∑ i ∈ s, f i = ∑ i ∈ s, (c : EReal) * f i := by
  classical
  have hc0 : (0 : EReal) ≤ (c : EReal) := by exact_mod_cast hc
  induction s using Finset.induction_on with
  | empty => simp
  | insert a s ha ih =>
    rw [Finset.sum_insert ha, Finset.sum_insert ha,
      EReal.left_distrib_of_nonneg_of_ne_top hc0 (EReal.coe_ne_top c), ih]

/-! ## One layer, two layers -/

/-- ONE LAYER: scaling the rows first and the total once is weighting every edge of the list with the loops
    appended. -/
theorem layer_eq (src dst : Fin 1200000 → BitVec 32) (H : Fin 100000 → Fin 64 → EReal) (b : Fin 64 → EReal) :
    layerK src dst (dinv dst) H b = layerR (cat src) (cat dst) H b := by
  funext n q
  obtain ⟨c, hc0, hc⟩ := dinv_real dst n
  have hcE : (0 : EReal) ≤ (c : EReal) := by exact_mod_cast hc0
  unfold layerK layerR
  refine congrArg (fun x => max (x + b q) 0) ?_
  -- the weighted side: unfold the weights, drop the guard, split off the loops
  have hw : (∑ e : Fin 1300000, if (cat dst e).toInt = (n.val : ℤ) then H (row (cat src e)) q * norm (cat src) (cat dst) e else 0)
      = (∑ e : Fin 1200000, if (dst e).toInt = (n.val : ℤ) then H (row (src e)) q * (dinv dst (row (src e)) * dinv dst (row (dst e))) else 0)
        + H n q * (dinv dst n * dinv dst n) := by
    have h := sum_cat src dst
      (fun s d => if d.toInt = (n.val : ℤ) then H (row s) q * (dinv dst (row s) * dinv dst (row d)) else 0)
    beta_reduce at h
    simp only [norm, dinvR_cat]
    refine h.trans ?_
    refine congrArg (fun x => _ + x) ?_
    rw [loop_sum n (fun j => H (row (BitVec.ofNat 32 j.val)) q
      * (dinv dst (row (BitVec.ofNat 32 j.val)) * dinv dst (row (BitVec.ofNat 32 j.val))))]
    rw [row_ofNat_node]
  rw [hw]
  -- the scale-first side: move the node's normaliser inside
  unfold agg scaled
  rw [hc, EReal.left_distrib_of_nonneg_of_ne_top hcE (EReal.coe_ne_top c), mul_sum_of_nonneg _ hc0]
  refine congrArg₂ (· + ·) ?_ ?_
  · refine Finset.sum_congr rfl fun e _ => ?_
    by_cases he : (dst e).toInt = (n.val : ℤ)
    · rw [if_pos he, if_pos he, row_of_toInt he, hc]
      rw [mul_comm (c : EReal), mul_assoc]
    · rw [if_neg he, if_neg he, mul_zero]
  · rw [mul_comm (c : EReal), mul_assoc]

/-- TWO LAYERS. -/
theorem twoK_eq_twoR (src dst : Fin 1200000 → BitVec 32) (X : Fin 100000 → Fin 5 → EReal)
    (W1 : Fin 5 → Fin 64 → EReal) (b1 : Fin 64 → EReal) (W2 : Fin 64 → Fin 64 → EReal) (b2 : Fin 64 → EReal) :
    twoK src dst X W1 b1 W2 b2 = twoR src dst X W1 b1 W2 b2 := by
  unfold twoK twoR
  rw [layer_eq src dst (lin X W1) b1, layer_eq]

end Cert.Gcn

end
-- ==== Proof.RefSide.lean ====
/-
  THE REFERENCE'S RESULT OVER ANY FEATURE MATRIX THAT HOLDS THE TWO LAYERS.

  The reference program ends with the mean-pool head applied to its second layer's output. So its result is the
  head, in the reference's spelling, of that output; a matrix whose every element is the two layers in the
  scale-first arrangement is that output (the two arrangements agree, and the output is the weighted one at every
  index); and the two spellings of the head are one function. Hence the reference's result is the head, in the
  kernel's spelling, of any such matrix.
-/
import proofs.«134846_j47244640256095_2_alg».proof.Proof.RefValue
import proofs.«134846_j47244640256095_2_alg».proof.Proof.Core
import proofs.«134846_j47244640256095_2_alg».proof.Proof.Tail
import Idealize.ShloMosaic.Lib.ValueIdx

noncomputable section

namespace Cert.RefSide

open Cert.ReferenceIdeal Cert.ReferenceIdeal.Gen Idealize.ShloMosaic Idealize.ShloMosaic.ValueIdx

/-- The reference's result is the head of its second layer's output: the stages after that output are the head's
    operations, one for one. -/
theorem v107_head
    (x0 : (⟨S100000x5, .f32⟩ : BufTy).Contents (Elt Ideal)) (x1 : (⟨S2x1200000, .i32⟩ : BufTy).Contents (Elt Ideal))
    (x2 : (⟨S100000, .i32⟩ : BufTy).Contents (Elt Ideal)) (x3 : (⟨S5x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x2, .f32⟩ : BufTy).Contents (Elt Ideal))
    (x8 : (⟨S2, .f32⟩ : BufTy).Contents (Elt Ideal)) :
    Cert.ReferenceIdeal.Read.val_main_v107 (F := Ideal) x0 x1 x2 x3 x4 x5 x6 x7 x8
      = Cert.PoolHead.headR (Cert.ReferenceIdeal.Read.val_main_v91 (F := Ideal) x0 x1 x3 x4 x5 x6) x2 x7 x8 := by
  unfold Cert.ReferenceIdeal.Read.val_main_v107 Cert.ReferenceIdeal.Read.val_main_v106
    Cert.ReferenceIdeal.Read.val_main_v105 Cert.ReferenceIdeal.Read.val_main_v104 Cert.ReferenceIdeal.Read.val_main_v103
    Cert.ReferenceIdeal.Read.val_main_v102 Cert.ReferenceIdeal.Read.val_main_v101 Cert.ReferenceIdeal.Read.val_main_v100
    Cert.ReferenceIdeal.Read.val_main_v99 Cert.ReferenceIdeal.Read.val_main_v98 Cert.ReferenceIdeal.Read.val_main_v97
    Cert.ReferenceIdeal.Read.val_main_v96 Cert.ReferenceIdeal.Read.val_main_v95 Cert.ReferenceIdeal.Read.val_main_v94
    Cert.ReferenceIdeal.Read.val_main_v93 Cert.ReferenceIdeal.Read.val_main_v92
    Cert.ReferenceIdeal.Read.val_main_cst_20 Cert.ReferenceIdeal.Read.val_main_cst_21
    Cert.ReferenceIdeal.Read.val_main_cst_22 Cert.ReferenceIdeal.Read.val_main_cst_23 Cert.PoolHead.headR
  generalize Cert.ReferenceIdeal.Read.val_main_v91 (F := Ideal) x0 x1 x3 x4 x5 x6 = f
  rfl

/-- Two matrices that agree at every pair of coordinates are equal. -/
theorem ext_ix2 {a b : ℕ} {α : Type} (f g : (⟨2, ![a, b]⟩ : Shape).Idx → α)
    (h : ∀ (p : Fin a) (q : Fin b), f (ix2 p q) = g (ix2 p q)) : f = g :=
  funext fun j => (congrArg f (eq_ix2 j)).trans ((h (j 0) (j 1)).trans (congrArg g (eq_ix2 j)).symm)

/-- A matrix holding the two layers in the scale-first arrangement at every index is the reference's second layer's
    output: the two arrangements agree, and that output is the weighted one at every index. -/
theorem features_eq
    (x0 : (⟨S100000x5, .f32⟩ : BufTy).Contents (Elt Ideal)) (x1 : (⟨S2x1200000, .i32⟩ : BufTy).Contents (Elt Ideal))
    (x3 : (⟨S5x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (hK : FVec Ideal S100000x64 .f32)
    (h : ∀ (p : Fin 100000) (q : Fin 64), hK (ix2 p q)
      = Cert.Gcn.twoK (fun e => x1 (ix2 (0 : Fin 2) e)) (fun e => x1 (ix2 (1 : Fin 2) e))
          (fun p k => x0 (ix2 p k)) (fun k q => x3 (ix2 k q)) (fun q => x4 (ix1 q))
          (fun k q => x5 (ix2 k q)) (fun q => x6 (ix1 q)) p q) :
    hK = Cert.ReferenceIdeal.Read.val_main_v91 (F := Ideal) x0 x1 x3 x4 x5 x6 :=
  ext_ix2 _ _ fun p q => by
    rw [h, Cert.Gcn.twoK_eq_twoR, Cert.RefValue.val_main_v91_apply]

/-- The reference's result is the head, in the kernel's spelling, of any matrix holding the two layers in the
    scale-first arrangement. -/
theorem result_eq
    (x0 : (⟨S100000x5, .f32⟩ : BufTy).Contents (Elt Ideal)) (x1 : (⟨S2x1200000, .i32⟩ : BufTy).Contents (Elt Ideal))
    (x2 : (⟨S100000, .i32⟩ : BufTy).Contents (Elt Ideal)) (x3 : (⟨S5x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x2, .f32⟩ : BufTy).Contents (Elt Ideal))
    (x8 : (⟨S2, .f32⟩ : BufTy).Contents (Elt Ideal))
    (hK : FVec Ideal S100000x64 .f32)
    (h : ∀ (p : Fin 100000) (q : Fin 64), hK (ix2 p q)
      = Cert.Gcn.twoK (fun e => x1 (ix2 (0 : Fin 2) e)) (fun e => x1 (ix2 (1 : Fin 2) e))
          (fun p k => x0 (ix2 p k)) (fun k q => x3 (ix2 k q)) (fun q => x4 (ix1 q))
          (fun k q => x5 (ix2 k q)) (fun q => x6 (ix1 q)) p q) :
    Cert.ReferenceIdeal.Read.val_main_v107 (F := Ideal) x0 x1 x2 x3 x4 x5 x6 x7 x8
      = Cert.PoolHead.headK hK x2 x7 x8 := by
  rw [v107_head, ← features_eq x0 x1 x3 x4 x5 x6 hK h, Cert.PoolHead.headK_eq_headR]

end Cert.RefSide

end
-- ==== Proof.lean ====
/-
  Two graph-convolution layers with symmetric degree normalisation, a mean pool and a linear head: a kernel program
  of three row-tiled regions among host gathers and scatters, against a plain reference, equal at the ideal values.

  THE TWO PROGRAMS. Both compute, per layer, `max (Â · (H · W) + b, 0)` with `Â = D^(-1/2) (A + I) D^(-1/2)`, `A` the
  edge list's adjacency and `D` the degrees with the loops counted. The reference appends one loop edge per node to
  the edge list, recounts the degrees over the longer list, gives every edge the weight `dinv[src] · dinv[dst]`,
  and scatters the weighted rows. The kernel program scales every row of `H · W` by its own `dinv` in the region
  that computes the product, lets the host gather and scatter the scaled rows over the ORIGINAL edges only, and in
  the next region adds the node's own scaled row (its loop) and multiplies the total by `dinv` once, fused with the
  bias, the floor at zero and the next layer's product.

  WHY THEY AGREE (Spec.lean, Core.lean). Entry by entry the two are `dinv n · (Σ_e a_e + a_n)` and
  `Σ_e a_e · dinv n + a_n · dinv n`. On the extended reals that is distributivity, which holds because `dinv n` is a
  nonnegative real: it is the inverse square root of a count plus one. No finiteness of the features is used, and
  the edge words may be anything: a gather wraps and clamps its row on both sides alike, a scatter drops a row that
  is no node's on both sides alike.

  HOW THE VALUES ARE READ. The kernel program's run is the frame's launch over its seven segments with the result
  buffer kept in the post (KernelRun.lean); its buffers are followed boundary by boundary (KernelFold.lean), each
  host stretch read as named terms (Stretches.lean, HostReads.lean) and each region's output array read from its
  blocks (RegionValues.lean), down to the second layer's features as `Cert.Gcn.twoK`. The reference's second layer is
  read stage by stage as `Cert.Gcn.twoR` (RefValue.lean). Both programs end with the same head over those
  features, spelt over their own records (Tail.lean), so equal features give equal results (RefSide.lean).
-/
import proofs.«134846_j47244640256095_2_alg».proof.Defs
import proofs.«134846_j47244640256095_2_alg».proof.Proof.Gen.Kernel
import proofs.«134846_j47244640256095_2_alg».proof.Proof.Gen.KernelIdeal
import proofs.«134846_j47244640256095_2_alg».proof.Proof.Gen.ReferenceIdeal
import proofs.«134846_j47244640256095_2_alg».proof.Proof.Gen.Pre_finite_inputs
import proofs.«134846_j47244640256095_2_alg».proof.Proof.Patched.Kernel.Frame
import proofs.«134846_j47244640256095_2_alg».proof.Proof.Patched.KernelIdeal.Frame
import proofs.«134846_j47244640256095_2_alg».proof.Proof.Patched.ReferenceIdeal.Read
import proofs.«134846_j47244640256095_2_alg».proof.Proof.KernelRun
import proofs.«134846_j47244640256095_2_alg».proof.Proof.KernelFold
import proofs.«134846_j47244640256095_2_alg».proof.Proof.RegionValues
import proofs.«134846_j47244640256095_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The three regions' output arrays, entry by entry (RegionValues.lean). -/
theorem regionReads : Cert.KernelIdeal.Fold.RegionReads :=
  ⟨Cert.KernelIdeal.Regions.region0_apply, Cert.KernelIdeal.Regions.region1_apply, Cert.KernelIdeal.Regions.region2_apply⟩

/-- At the ideal values, from memories agreeing on the arguments, both programs run and end with the same result:
    the kernel program's result is the head of its third region's output, which holds `Cert.Gcn.twoK` of the
    arguments entry by entry; the reference's result is the same head of features that hold `Cert.Gcn.twoR` of the
    arguments; and the two are one function. -/
theorem algebraic : Cert.algebraic_KernelIdeal_ReferenceIdeal := by
  intro m ρ m' ρ' _ hagree
  refine ⟨fun c => Cert.KernelIdeal.Gen.W7 m ρ c (Proc.devRef .tc Cert.KernelIdeal.main_v52),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v107_eq, h0, h1, h2, h3, h4, h5, h6, h7, h8]
  refine Eq.trans ?_ (Cert.KernelIdeal.Fold.W7_v52 m ρ c).symm
  exact Cert.RefSide.result_eq _ _ _ _ _ _ _ _ _ _ (fun p q => Cert.KernelIdeal.Fold.W6_v36 regionReads m ρ c p q)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
